-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x256 : Shape := ⟨3, ![4, 2048, 256]⟩
abbrev S2048x2048 : Shape := ⟨2, ![2048, 2048]⟩
abbrev S3x256x256 : Shape := ⟨3, ![3, 256, 256]⟩
abbrev S256 : Shape := ⟨1, ![256]⟩
abbrev S_ : Shape := ⟨0, ![]⟩

class Facts : Prop where
  bcast_S_S4x2048x256 : S_.BroadcastsInDim S4x2048x256 (![] : Fin 0 → Fin S4x2048x256.rank)
  reducesTo_S4x2048x256_S_d0_1_2 : S4x2048x256.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4x2048x256 .f32) (main_arg1 : FVec F S2048x2048 .f32) (main_arg2 : FVec F S3x256x256 .f32) (main_arg3 : FVec F S256 .f32) : IVec S_ 1 :=
  let main_v0 : FVec F S4x2048x256 .f32 := Host.absf main_arg0
  let main_cst : FVec F S_ .f32 := constant S_ .f32 0x7F800000#32
  let main_v1 : FVec F S4x2048x256 .f32 := broadcastInDim S4x2048x256 ![] bcast_S_S4x2048x256 main_cst
  let main_v2 : IVec S4x2048x256 1 := cmpf .olt main_v0 main_v1
  let main_c : IVec S_ 1 := constantI S_ 1 1#1
  let main_v3 : IVec S_ 1 := (fun x v => Host.reduce IntOp.andi x v reducesTo_S4x2048x256_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S3x256x256 .f32 := Host.absf main_arg2
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4x2048x256 : Shape := ⟨3, ![4, 2048, 256]⟩
abbrev S2048x2048 : Shape := ⟨2, ![2048, 2048]⟩
abbrev S3x256x256 : Shape := ⟨3, ![3, 256, 256]⟩
abbrev S256 : Shape := ⟨1, ![256]⟩
abbrev S1x256 : Shape := ⟨2, ![1, 256]⟩
abbrev S8192x256 : Shape := ⟨2, ![8192, 256]⟩
abbrev S2048x256 : Shape := ⟨2, ![2048, 256]⟩
abbrev S2048 : Shape := ⟨1, ![2048]⟩
abbrev S2048x1 : Shape := ⟨2, ![2048, 1]⟩
abbrev S256x256 : Shape := ⟨2, ![256, 256]⟩
abbrev S256x1 : Shape := ⟨2, ![256, 1]⟩
abbrev S1x256x256 : Shape := ⟨3, ![1, 256, 256]⟩
abbrev S6144x256 : Shape := ⟨2, ![6144, 256]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x256, .f32⟩
  | .hbm, ⟨1, _⟩ => ⟨S2048x2048, .f32⟩
  | .hbm, ⟨2, _⟩ => ⟨S3x256x256, .f32⟩
  | .hbm, ⟨3, _⟩ => ⟨S256, .f32⟩
  | .hbm, ⟨4, _⟩ => ⟨S1x256, .f32⟩
  | .hbm, ⟨5, _⟩ => ⟨S8192x256, .f32⟩
  | .hbm, ⟨6, _⟩ => ⟨S4x2048x256, .f32⟩
  | .local _ .vmem, ⟨0, _⟩ => ⟨S4x2048x256, .f32⟩
  | .local _ .vmem, ⟨1, _⟩ => ⟨S2048x2048, .f32⟩
  | .local _ .vmem, ⟨2, _⟩ => ⟨S3x256x256, .f32⟩
  | .local _ .vmem, ⟨3, _⟩ => ⟨S1x256, .f32⟩
  | .local _ .vmem, ⟨4, _⟩ => ⟨S8192x256, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  shapeCasts_S256_S1x256 : S256.ShapeCasts S1x256
  inb_S2048x2048_S2048x2048_0_0 : ∀ a, (![0, 0] : Fin 2 → Nat) a + S2048x2048.size a ≤ S2048x2048.size a
  h_S2048x2048 : 0 < S2048x2048.numel
  inb_S4x2048x256_S4x2048x256_0_0_0 : ∀ a, (![0, 0, 0] : Fin 3 → Nat) a + S4x2048x256.size a ≤ S4x2048x256.size a
  h_S4x2048x256 : 0 < S4x2048x256.numel
  shapeCasts_S4x2048x256_S8192x256 : S4x2048x256.ShapeCasts S8192x256
  slices_S8192x256_o0_0_S2048x256 : S8192x256.Slices ![0, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x2048_S2048 : S2048x2048.Reduces [1] S2048
  shapeCasts_S2048_S2048x1 : S2048.ShapeCasts S2048x1
  iota_S256x256_d0_w32 : S256x256.Iotas .tc 32 [0]
  iota_S256x256_d1_w32 : S256x256.Iotas .tc 32 [1]
  slices_S2048x2048_o0_0_S256x256 : S2048x2048.Slices ![0, 0] S256x256
  reduces_S256x256_S256 : S256x256.Reduces [1] S256
  shapeCasts_S256_S256x1 : S256.ShapeCasts S256x1
  slices_S2048x2048_o256_256_S256x256 : S2048x2048.Slices ![256, 256] S256x256
  slices_S2048x2048_o512_512_S256x256 : S2048x2048.Slices ![512, 512] S256x256
  slices_S2048x2048_o768_768_S256x256 : S2048x2048.Slices ![768, 768] S256x256
  slices_S2048x2048_o1024_1024_S256x256 : S2048x2048.Slices ![1024, 1024] S256x256
  slices_S2048x2048_o1280_1280_S256x256 : S2048x2048.Slices ![1280, 1280] S256x256
  slices_S2048x2048_o1536_1536_S256x256 : S2048x2048.Slices ![1536, 1536] S256x256
  slices_S2048x2048_o1792_1792_S256x256 : S2048x2048.Slices ![1792, 1792] S256x256
  concatenates_S256x1_S256x1_S256x1_S256x1_S256x1_S256x1_S256x1_S256x1_S2048x1_d0 : Shape.Concatenates [S256x1, S256x1, S256x1, S256x1, S256x1, S256x1, S256x1, S256x1] S2048x1 0
  broadcasts_S2048x1_S2048x256 : S2048x1.Broadcasts S2048x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_2_0_0 : ∀ a, (![2, 0, 0] : Fin 3 → Nat) a + S1x256x256.size a ≤ S3x256x256.size a
  inb_S3x256x256_S1x256x256_1_0_0 : ∀ a, (![1, 0, 0] : Fin 3 → Nat) a + S1x256x256.size a ≤ S3x256x256.size a
  broadcasts_S1x256_S2048x256 : S1x256.Broadcasts S2048x256
  inb_S8192x256_S2048x256_0_0 : ∀ a, (![0, 0] : Fin 2 → Nat) a + S2048x256.size a ≤ S8192x256.size a
  h_S2048x256 : 0 < S2048x256.numel
  slices_S8192x256_o2048_0_S6144x256 : S8192x256.Slices ![2048, 0] S6144x256
  broadcasts_S1x256_S6144x256 : S1x256.Broadcasts S6144x256
  inb_S8192x256_S6144x256_2048_0 : ∀ a, (![2048, 0] : Fin 2 → Nat) a + S6144x256.size a ≤ S8192x256.size a
  h_S6144x256 : 0 < S6144x256.numel
  shapeCasts_S8192x256_S4x2048x256 : S8192x256.ShapeCasts S4x2048x256
  dot_S2048x2048_S2048x256_S2048x256_0_0_1_1_n_n_wf : DotDims.WF S2048x2048 S2048x256 S2048x256 [0] [0] [1] [1] [] []
  dot_S2048x256_S256x256_S2048x256_1_0_0_1_n_n_wf : DotDims.WF S2048x256 S256x256 S2048x256 [1] [0] [0] [1] [] []
  dot_S6144x256_S256x256_S6144x256_1_0_0_1_n_n_wf : DotDims.WF S6144x256 S256x256 S6144x256 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

def dot_S2048x2048_S2048x256_S2048x256_0_0_1_1_n_n : DotDims S2048x2048 S2048x256 S2048x256 where
  lhsContracting := [0]
  rhsContracting := [0]
  lhsNonContracting := [1]
  rhsNonContracting := [1]
  lhsBatch := []
  rhsBatch := []
  wf := dot_S2048x2048_S2048x256_S2048x256_0_0_1_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S6144x256_S256x256_S6144x256_1_0_0_1_n_n : DotDims S6144x256 S256x256 S6144x256 where
  lhsContracting := [1]
  rhsContracting := [0]
  lhsNonContracting := [0]
  rhsNonContracting := [1]
  lhsBatch := []
  rhsBatch := []
  wf := dot_S6144x256_S256x256_S6144x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x256 : Shape := ⟨3, ![4, 2048, 256]⟩
abbrev S2048x2048 : Shape := ⟨2, ![2048, 2048]⟩
abbrev S3x256x256 : Shape := ⟨3, ![3, 256, 256]⟩
abbrev S256 : Shape := ⟨1, ![256]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S8192x256 : Shape := ⟨2, ![8192, 256]⟩
abbrev S1x256x256 : Shape := ⟨3, ![1, 256, 256]⟩
abbrev S256x256 : Shape := ⟨2, ![256, 256]⟩
abbrev S2048x256 : Shape := ⟨2, ![2048, 256]⟩
abbrev S6144x256 : Shape := ⟨2, ![6144, 256]⟩
abbrev S1x256 : Shape := ⟨2, ![1, 256]⟩

abbrev nBuf : Space → Nat
  | .hbm => 73
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S2048x2048, .f32⟩
  | .hbm, ⟨2, _⟩ => ⟨S3x256x256, .f32⟩
  | .hbm, ⟨3, _⟩ => ⟨S256, .f32⟩
  | .hbm, ⟨4, _⟩ => ⟨S2048x2048, .i32⟩
  | .hbm, ⟨5, _⟩ => ⟨S2048x2048, .i32⟩
  | .hbm, ⟨6, _⟩ => ⟨S_, .i32⟩
  | .hbm, ⟨7, _⟩ => ⟨S2048x2048, .i32⟩
  | .hbm, ⟨8, _⟩ => ⟨S2048x2048, .i32⟩
  | .hbm, ⟨9, _⟩ => ⟨S2048x2048, .i1⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S2048, .i1⟩
  | .hbm, ⟨20, _⟩ => ⟨S_, .f32⟩
  | .hbm, ⟨21, _⟩ => ⟨S_, .f32⟩
  | .hbm, ⟨22, _⟩ => ⟨S2048, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .i1⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S8192x256, .f32⟩
  | .hbm, ⟨44, _⟩ => ⟨S1x256x256, .f32⟩
  | .hbm, ⟨45, _⟩ => ⟨S256x256, .f32⟩
  | .hbm, ⟨46, _⟩ => ⟨S8192x256, .f32⟩
  | .hbm, ⟨47, _⟩ => ⟨S2048x256, .f32⟩
  | .hbm, ⟨48, _⟩ => ⟨S2048x256, .f32⟩
  | .hbm, ⟨49, _⟩ => ⟨S_, .f32⟩
  | .hbm, ⟨50, _⟩ => ⟨S6144x256, .f32⟩
  | .hbm, ⟨51, _⟩ => ⟨S8192x256, .f32⟩
  | .hbm, ⟨52, _⟩ => ⟨S1x256x256, .f32⟩
  | .hbm, ⟨53, _⟩ => ⟨S256x256, .f32⟩
  | .hbm, ⟨54, _⟩ => ⟨S8192x256, .f32⟩
  | .hbm, ⟨55, _⟩ => ⟨S8192x256, .f32⟩
  | .hbm, ⟨56, _⟩ => ⟨S2048x256, .f32⟩
  | .hbm, ⟨57, _⟩ => ⟨S2048x256, .f32⟩
  | .hbm, ⟨58, _⟩ => ⟨S_, .f32⟩
  | .hbm, ⟨59, _⟩ => ⟨S6144x256, .f32⟩
  | .hbm, ⟨60, _⟩ => ⟨S8192x256, .f32⟩
  | .hbm, ⟨61, _⟩ => ⟨S_, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S1x256x256, .f32⟩
  | .hbm, ⟨66, _⟩ => ⟨S256x256, .f32⟩
  | .hbm, ⟨67, _⟩ => ⟨S8192x256, .f32⟩
  | .hbm, ⟨68, _⟩ => ⟨S8192x256, .f32⟩
  | .hbm, ⟨69, _⟩ => ⟨S1x256, .f32⟩
  | .hbm, ⟨70, _⟩ => ⟨S8192x256, .f32⟩
  | .hbm, ⟨71, _⟩ => ⟨S8192x256, .f32⟩
  | .hbm, ⟨72, _⟩ => ⟨S4x2048x256, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  reducesTo_S2048x2048_S2048_d1 : S2048x2048.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  transposes_S2048x2048_S2048x2048_1_0 : S2048x2048.Transposes [1, 0] S2048x2048
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  shapeCasts_S4x2048x256_S8192x256 : S4x2048x256.ShapeCasts S8192x256
  slices_S3x256x256_S1x256x256_0_0_0 : S3x256x256.Slices ![0, 0, 0] S1x256x256
  shapeCasts_S1x256x256_S256x256 : S1x256x256.ShapeCasts S256x256
  slices_S8192x256_S2048x256_0_0 : S8192x256.Slices ![0, 0] S2048x256
  bcast_S_S6144x256 : S_.BroadcastsInDim S6144x256 (![] : Fin 0 → Fin S6144x256.rank)
  concatenates_S2048x256_S6144x256_S8192x256_d0 : Shape.Concatenates [S2048x256, S6144x256] S8192x256 0
  slices_S3x256x256_S1x256x256_1_0_0 : S3x256x256.Slices ![1, 0, 0] S1x256x256
  bcast_S_S8192x256 : S_.BroadcastsInDim S8192x256 (![] : Fin 0 → Fin S8192x256.rank)
  slices_S3x256x256_S1x256x256_2_0_0 : S3x256x256.Slices ![2, 0, 0] S1x256x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  shapeCasts_S8192x256_S4x2048x256 : S8192x256.ShapeCasts S4x2048x256
  dot_S8192x256_S256x256_S8192x256_1_0_0_1_n_n_wf : DotDims.WF S8192x256 S256x256 S8192x256 [1] [0] [0] [1] [] []
  dot_S2048x2048_S2048x256_S2048x256_1_0_0_1_n_n_wf : DotDims.WF S2048x2048 S2048x256 S2048x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

class Facts : Prop extends Facts₀ where

variable [Facts]
-- ==== Proof.ChebSpec.lean ====
/-
  The Chebyshev graph convolution of order three on a dense graph of 2048 nodes, as two index-by-index
  functions on the extended reals, and nothing of either program.

  Inputs: `a r c` the adjacency weights (2048 × 2048), `x i k` the node features of four stacked graphs
  (8192 = 4 · 2048 rows, 256 features), `w t k j` the three weight matrices, `b j` the bias.

  Both forms compute, for a row `i` of the first graph,
      x_i W₀ + (S x)_i W₁ + (2 S S x − x)_i W₂ + b,
  and for a later row `x_i W₀ − x_i W₂ + b`, where `S = −D^{-1/2} Aᵀ D^{-1/2}`, `A` is `a` with its
  diagonal removed, and `D` the row sums of `A` (a row of non-positive sum has `D^{-1/2} = 0`).

  * The FACTORED form (`outF`) never builds `S`: the degree is the full row sum minus the diagonal
    entry, `D^{-1/2}` is a reciprocal square root, and `S y = a₁ y − d · (aᵀ (d · y))` with
    `a₁ = d² · diag a`; the two terms in `W₀` and `W₂` that multiply `x` are merged into `W₀ − W₂`, and
    the factor two is moved onto `W₂`.
  * The OPERATOR form (`outM`) masks the diagonal by a product with `1 − δ`, takes `1 / sqrt`, builds
    the matrix `S` entry by entry and applies it, padding with zero rows below the first graph.

  The two agree when every input is a real number (ChebAlgebra); at an infinite entry they need not
  (the laws used are distributivity and cancellation).
-/
import Idealize.ShloMosaic.PureOps.Ideal
import Idealize.ShloMosaic.Lib.IdealHost

noncomputable section

open scoped BigOperators

namespace Cert.ChebSpec

open Idealize.ShloMosaic

/-! ## Words: a comparison feeding a select is an `if`; the three float literals -/

/-- `select (u > v) p q` on the extended reals is `if v < u then p else q`. -/
theorem select_gt {α : Type} (u v : EReal) (p q : α) :
    Scalar.select (Ideal.cmp .ogt u v) p q = if v < u then p else q := by
  unfold Scalar.select Ideal.cmp
  by_cases h : v < u <;> simp [h]

/-- The pattern of `2.0` is the real number two. -/
theorem ofBits_two : Ideal.ofBits .f32 0x40000000#32 = ((2 : ℝ) : EReal) := by
  simp [Ideal.ofBits, Ideal.ieee, -EReal.coe_mul]; norm_num

/-! ## What both forms share -/

/-- The rows of the first graph. -/
def top (x : Fin 8192 → Fin 256 → EReal) (i : Fin 2048) (k : Fin 256) : EReal :=
  x ⟨i.val, by have := i.isLt; omega⟩ k

/-! ## The factored form -/

/-- Degree: the whole row sum minus the diagonal entry. -/
def degF (a : Fin 2048 → Fin 2048 → EReal) (r : Fin 2048) : EReal := (∑ c : Fin 2048, a r c) - a r r

/-- `d ↦ d^{-1/2}` where `d > 0`, else `0`, by a reciprocal square root of a guarded argument. -/
def invSqrtF (d : EReal) : EReal := if 0 < d then Ideal.rsqrt (if 0 < d then d else 1) else 0

def dF (a : Fin 2048 → Fin 2048 → EReal) (r : Fin 2048) : EReal := invSqrtF (degF a r)

/-- `a₁ = d² · diag a`. -/
def a1F (a : Fin 2048 → Fin 2048 → EReal) (r : Fin 2048) : EReal := dF a r * dF a r * a r r

/-- One application of the operator, factored: `a₁ y − d · (aᵀ (d · y))`. -/
def stepF (a : Fin 2048 → Fin 2048 → EReal) (y : Fin 2048 → Fin 256 → EReal) (i : Fin 2048) (f : Fin 256) : EReal :=
  a1F a i * y i f - dF a i * ∑ r : Fin 2048, a r i * (dF a r * y r f)

/-- `W₀ − W₂`. -/
def wc (w : Fin 3 → Fin 256 → Fin 256 → EReal) (k j : Fin 256) : EReal := w 0 k j - w 2 k j

def outF (a : Fin 2048 → Fin 2048 → EReal) (x : Fin 8192 → Fin 256 → EReal) (w : Fin 3 → Fin 256 → Fin 256 → EReal)
    (b : Fin 256 → EReal) (i : Fin 8192) (j : Fin 256) : EReal :=
  if h : i.val < 2048 then
    (((∑ k : Fin 256, top x ⟨i.val, h⟩ k * wc w k j)
      + ∑ k : Fin 256, stepF a (top x) ⟨i.val, h⟩ k * w 1 k j)
      + ∑ k : Fin 256, stepF a (stepF a (top x)) ⟨i.val, h⟩ k * (((2 : ℝ) : EReal) * w 2 k j))
    + b j
  else (∑ k : Fin 256, x i k * wc w k j) + b j

/-! ## The operator form -/

/-- The adjacency with its diagonal removed: a product with `1 − δ`. -/
def offDiag (a : Fin 2048 → Fin 2048 → EReal) (r c : Fin 2048) : EReal :=
  a r c * (1 - if r = c then (1 : EReal) else 0)

/-- Degree: zero plus the row sum of the masked adjacency. -/
def degM (a : Fin 2048 → Fin 2048 → EReal) (r : Fin 2048) : EReal := 0 + ∑ c : Fin 2048, offDiag a r c

/-- `d ↦ d^{-1/2}` where `d > 0`, else `0`, by one over the square root of a guarded argument. -/
def invSqrtM (d : EReal) : EReal := if 0 < d then Ideal.div 1 (Ideal.sqrt (if 0 < d then d else 1)) else 0

def dM (a : Fin 2048 → Fin 2048 → EReal) (r : Fin 2048) : EReal := invSqrtM (degM a r)

/-- The operator's entry: `S i j = −(d i · A j i · d j)`. -/
def opM (a : Fin 2048 → Fin 2048 → EReal) (i j : Fin 2048) : EReal := -((dM a i * offDiag a j i) * dM a j)

/-- One application of the operator, as a matrix product. -/
def stepM (a : Fin 2048 → Fin 2048 → EReal) (y : Fin 2048 → Fin 256 → EReal) (i : Fin 2048) (f : Fin 256) : EReal :=
  ∑ j : Fin 2048, opM a i j * y j f

/-- Zero rows below the first graph. -/
def pad (y : Fin 2048 → Fin 256 → EReal) (i : Fin 8192) (f : Fin 256) : EReal :=
  if h : i.val < 2048 then y ⟨i.val, h⟩ f else 0

def outM (a : Fin 2048 → Fin 2048 → EReal) (x : Fin 8192 → Fin 256 → EReal) (w : Fin 3 → Fin 256 → Fin 256 → EReal)
    (b : Fin 256 → EReal) (i : Fin 8192) (j : Fin 256) : EReal :=
  (((∑ k : Fin 256, x i k * w 0 k j)
    + ∑ k : Fin 256, pad (stepM a (top x)) i k * w 1 k j)
    + ∑ k : Fin 256, (((2 : ℝ) : EReal) * pad (stepM a (stepM a (top x))) i k - x i k) * w 2 k j)
  + b j

end Cert.ChebSpec

end
-- ==== Proof.LibVecRead.lean ====
/-
  Vector operations of small literal shapes read at an index built from coordinates: a column made from a
  vector, a column broadcast over the lanes, a rectangular slice with offsets on both axes, a sum along the
  lanes as a finite sum, and the mask "row index equals lane index".  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.VecRead

open Idealize.ShloMosaic Idealize.ShloMosaic.ValueIdx

variable {α : Type}

/-- A vector of length `a` viewed as an `a × 1` column reads, at `(r, 0)`, the vector at `r`. -/
theorem shapeCast_col_apply {a : ℕ} (v : (⟨1, ![a]⟩ : Shape).Idx → α) (h : (⟨1, ![a]⟩ : Shape).ShapeCasts ⟨2, ![a, 1]⟩)
    (r : Fin a) (z : Fin 1) : shapeCast ⟨2, ![a, 1]⟩ v h (ix2 r z) = v (ix1 r) :=
  shapeCast_apply v h _ _ (by
    have hz : z.val = 0 := by omega
    rw [Shape.rowMajor_val_one, Shape.rowMajor_val_two]
    show r.val = r.val * 1 + z.val
    omega)

/-- An `a × 1` column broadcast to `a × b` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A rectangular slice with unit strides reads, at `(r, c)`, the operand at `(o₀ + r, o₁ + c)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩) (r : Fin m0) (c : Fin m1) (r' : Fin n0) (c' : Fin n1)
    (hr : r'.val = o0 + r.val) (hc : c'.val = o1 + c.val) :
    extractStridedSlice ⟨2, ![m0, m1]⟩ ![o0, o1] X h (ix2 r c) = X (ix2 r' c') :=
  extractStridedSlice_apply _ X h _ _ fun ax => match ax with
    | ⟨0, _⟩ => hr
    | ⟨1, _⟩ => hc

/-- At the extended reals a sum along the lanes of an `a × b` array, from the zero word, is at row `r` the finite sum
    of the row's entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec FTy.f32.bits) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src (funext fun d => Fin.ext ?_)
  match d with
  | ⟨0, _⟩ => rfl
  | ⟨1, _⟩ => rfl

/-- The mask "row index = lane index" of an `n × n` tile, `n` below `2^32`. -/
theorem eyeMask_apply {n : ℕ} (hn : n ≤ 4294967296) (h0 : (⟨2, ![n, n]⟩ : Shape).Iotas .tc 32 [0]) (h1 : (⟨2, ![n, n]⟩ : Shape).Iotas .tc 32 [1])
    (r c : Fin n) :
    cmpi .eq (iota .tc ⟨2, ![n, n]⟩ 32 [0] h0) (iota .tc ⟨2, ![n, n]⟩ 32 [1] h1) (ix2 r c) = if r = c then 1#1 else 0#1 := by
  show IntOp.cmpi .eq (iota .tc ⟨2, ![n, n]⟩ 32 [0] h0 (ix2 r c)) (iota .tc ⟨2, ![n, n]⟩ 32 [1] h1 (ix2 r c)) = _
  rw [iota_single_apply, iota_single_apply]
  show BitVec.ofBool (BitVec.ofNat 32 r.val == BitVec.ofNat 32 c.val) = _
  have hr := r.isLt
  have hc := c.isLt
  by_cases e : r = c
  · subst e; simp
  · have : r.val ≠ c.val := fun hv => e (Fin.ext hv)
    have hne : BitVec.ofNat 32 r.val ≠ BitVec.ofNat 32 c.val := by
      intro hv
      have := congrArg BitVec.toNat hv
      simp only [BitVec.toNat_ofNat] at this
      rw [Nat.mod_eq_of_lt (by omega), Nat.mod_eq_of_lt (by omega)] at this
      exact ‹r.val ≠ c.val› this
    rw [if_neg e, beq_eq_false_iff_ne.mpr hne]
    rfl

/-- A select under that mask against the zero word, summed along the lanes, keeps the diagonal entry: every other
    term of the sum is zero. -/
theorem sum_eye_select {n : ℕ} (f : Fin n → EReal) (r : Fin n) :
    (∑ k : Fin n, Scalar.select (if r = k then 1#1 else 0#1) (f k) (0 : EReal)) = f r := by
  have : ∀ k : Fin n, Scalar.select (if r = k then 1#1 else 0#1) (f k) (0 : EReal) = if r = k then f k else 0 := by
    intro k; by_cases e : r = k <;> simp [e, Scalar.select]
  simp only [this, Finset.sum_ite_eq, Finset.mem_univ, if_true]

end Cert.VecRead

end
-- ==== Proof.KernelPay.lean ====
/-
  The kernel body's small quantities read at an index, at the extended reals, from the adjacency block `A`
  the body loads: the row sums, the diagonal (taken tile by tile from the eight 256 × 256 diagonal tiles, each
  masked to its own diagonal and summed along the lanes, the eight columns stacked), the inverse square root
  of the degree, and the coefficient `a₁ = d² · diag`.
-/
import proofs.«122164_g54185307406511_cont_9to1_m_906_19_alg».proof.Proof.Gen.KernelIdeal.Skeleton
import proofs.«122164_g54185307406511_cont_9to1_m_906_19_alg».proof.Proof.ChebSpec
import proofs.«122164_g54185307406511_cont_9to1_m_906_19_alg».proof.Proof.LibVecRead
import Idealize.ShloMosaic.Lib.IdealHost

noncomputable section

open scoped BigOperators

namespace Cert.KernelIdeal.Pay

open Cert.KernelIdeal Cert.KernelIdeal.Gen Idealize.ShloMosaic Idealize.ShloMosaic.ValueIdx Cert.VecRead Cert.ChebSpec

/-- The adjacency block by coordinates. -/
abbrev adj (A : FVec Ideal S2048x2048 .f32) (r c : Fin 2048) : EReal := A (ix2 r c)

/-- Row sums, as a column. -/
theorem pay7_apply (A : FVec Ideal S2048x2048 .f32) (r : Fin 2048) (z : Fin 1) :
    k0_pay7 (F := Ideal) A (ix2 r z) = ∑ c : Fin 2048, adj A r c := by
  unfold k0_pay7
  refine (shapeCast_col_apply _ _ r z).trans ?_
  exact laneSum_apply A _ _ _ r

/-- The mask of a tile's diagonal. -/
theorem pay8_apply (r c : Fin 256) : k0_pay8 (ix2 r c) = if r = c then 1#1 else 0#1 := by
  unfold k0_pay8
  exact eyeMask_apply (by norm_num) _ _ r c

/-- One diagonal tile, masked to its diagonal and summed along the lanes: row `r` of the tile at offset `o` keeps
    `A (o + r, o + r)`. -/
theorem diagTile_apply (A : FVec Ideal S2048x2048 .f32) (mask : IVec S256x256 1)
    (hmask : ∀ r c : Fin 256, mask (ix2 r c) = if r = c then 1#1 else 0#1)
    (o : ℕ) (ho : o + 256 ≤ 2048) (hs : S2048x2048.Slices ![o, o] S256x256) (hred : S256x256.Reduces [1] S256)
    (hφ : FKind.Formats .f32) (hacc : (0x00000000#32 : BitVec FTy.f32.bits) = FKind.add.neutral .f32 hφ)
    (r : Fin 256) (R : Fin 2048) (hR : R.val = o + r.val) :
    multiReduction .add [1] S256
        (select mask (extractStridedSlice S256x256 ![o, o] A hs) (broadcast S256x256 (Scalar.ofBits (F := Ideal) .f32 0x00000000#32)))
        0x00000000#32 hred hφ hacc (ix1 r)
      = adj A R R := by
  refine (laneSum_apply _ hred hφ hacc r).trans ?_
  have hb : ∀ k : Fin 256, o + k.val < 2048 := fun k => by have := k.isLt; omega
  have e : ∀ k : Fin 256,
      select mask (extractStridedSlice S256x256 ![o, o] A hs) (broadcast S256x256 (Scalar.ofBits (F := Ideal) .f32 0x00000000#32)) (ix2 r k)
        = Scalar.select (if r = k then 1#1 else 0#1) (A (ix2 R ⟨o + k.val, hb k⟩)) (0 : EReal) := by
    intro k
    rw [select_apply, hmask, broadcast_apply]
    rw [slice2_apply o o A hs r k R ⟨o + k.val, hb k⟩ hR rfl]
    show Scalar.select _ _ (Ideal.ofBits .f32 0x00000000#32) = _
    rw [Ideal.ofBits_zero_f32]
  refine (Finset.sum_congr rfl fun k _ => e k).trans ?_
  refine (sum_eye_select (fun k : Fin 256 => A (ix2 R ⟨o + k.val, hb k⟩)) r).trans ?_
  show A (ix2 R _) = A (ix2 R R)
  exact congrArg (fun c => A (ix2 R c)) (Fin.ext hR.symm)

/-- The first five diagonal tiles as the body names them, and the sixth before it is made a column. -/
theorem pay9_apply (A : FVec Ideal S2048x2048 .f32) (r : Fin 256) (z : Fin 1) (R : Fin 2048) (hR : R.val = 0 + r.val) :
    k0_pay9 (F := Ideal) A (ix2 r z) = adj A R R := by
  unfold k0_pay9
  refine (shapeCast_col_apply _ _ r z).trans ?_
  exact diagTile_apply A k0_pay8 pay8_apply 0 (by norm_num) _ _ _ _ r R hR
theorem pay10_apply (A : FVec Ideal S2048x2048 .f32) (r : Fin 256) (z : Fin 1) (R : Fin 2048) (hR : R.val = 256 + r.val) :
    k0_pay10 (F := Ideal) A (ix2 r z) = adj A R R := by
  unfold k0_pay10
  refine (shapeCast_col_apply _ _ r z).trans ?_
  exact diagTile_apply A k0_pay8 pay8_apply 256 (by norm_num) _ _ _ _ r R hR
theorem pay11_apply (A : FVec Ideal S2048x2048 .f32) (r : Fin 256) (z : Fin 1) (R : Fin 2048) (hR : R.val = 512 + r.val) :
    k0_pay11 (F := Ideal) A (ix2 r z) = adj A R R := by
  unfold k0_pay11
  refine (shapeCast_col_apply _ _ r z).trans ?_
  exact diagTile_apply A k0_pay8 pay8_apply 512 (by norm_num) _ _ _ _ r R hR
theorem pay12_apply (A : FVec Ideal S2048x2048 .f32) (r : Fin 256) (z : Fin 1) (R : Fin 2048) (hR : R.val = 768 + r.val) :
    k0_pay12 (F := Ideal) A (ix2 r z) = adj A R R := by
  unfold k0_pay12
  refine (shapeCast_col_apply _ _ r z).trans ?_
  exact diagTile_apply A k0_pay8 pay8_apply 768 (by norm_num) _ _ _ _ r R hR
theorem pay13_apply (A : FVec Ideal S2048x2048 .f32) (r : Fin 256) (z : Fin 1) (R : Fin 2048) (hR : R.val = 1024 + r.val) :
    k0_pay13 (F := Ideal) A (ix2 r z) = adj A R R := by
  unfold k0_pay13
  refine (shapeCast_col_apply _ _ r z).trans ?_
  exact diagTile_apply A k0_pay8 pay8_apply 1024 (by norm_num) _ _ _ _ r R hR
theorem pay14_apply (A : FVec Ideal S2048x2048 .f32) (r : Fin 256) (R : Fin 2048) (hR : R.val = 1280 + r.val) :
    k0_pay14 (F := Ideal) A (ix1 r) = adj A R R := by
  unfold k0_pay14
  exact diagTile_apply A k0_pay8 pay8_apply 1280 (by norm_num) _ _ _ _ r R hR

/-- What the later payloads are told about the values they are handed: the row sums, the diagonal mask, the first
    five diagonal tiles as columns and the sixth as a vector. -/
structure Given (A : FVec Ideal S2048x2048 .f32) (v7 : FVec Ideal S2048x1 .f32) (v10 : IVec S256x256 1)
    (v15 v20 v25 v30 v35 : FVec Ideal S256x1 .f32) (v39 : FVec Ideal S256 .f32) : Prop where
  h7 : ∀ (R : Fin 2048) (z : Fin 1), v7 (ix2 R z) = ∑ c : Fin 2048, adj A R c
  h10 : ∀ r c : Fin 256, v10 (ix2 r c) = if r = c then 1#1 else 0#1
  h15 : ∀ (r : Fin 256) (z : Fin 1) (R : Fin 2048), R.val = 0 + r.val → v15 (ix2 r z) = adj A R R
  h20 : ∀ (r : Fin 256) (z : Fin 1) (R : Fin 2048), R.val = 256 + r.val → v20 (ix2 r z) = adj A R R
  h25 : ∀ (r : Fin 256) (z : Fin 1) (R : Fin 2048), R.val = 512 + r.val → v25 (ix2 r z) = adj A R R
  h30 : ∀ (r : Fin 256) (z : Fin 1) (R : Fin 2048), R.val = 768 + r.val → v30 (ix2 r z) = adj A R R
  h35 : ∀ (r : Fin 256) (z : Fin 1) (R : Fin 2048), R.val = 1024 + r.val → v35 (ix2 r z) = adj A R R
  h39 : ∀ (r : Fin 256) (R : Fin 2048), R.val = 1280 + r.val → v39 (ix1 r) = adj A R R

theorem given (A : FVec Ideal S2048x2048 .f32) :
    Given A (k0_pay7 A) k0_pay8 (k0_pay9 A) (k0_pay10 A) (k0_pay11 A) (k0_pay12 A) (k0_pay13 A) (k0_pay14 A) :=
  ⟨pay7_apply A, pay8_apply, pay9_apply A, pay10_apply A, pay11_apply A, pay12_apply A, pay13_apply A, pay14_apply A⟩

section
variable {A : FVec Ideal S2048x2048 .f32} {v7 : FVec Ideal S2048x1 .f32} {v10 : IVec S256x256 1}
  {v15 v20 v25 v30 v35 : FVec Ideal S256x1 .f32} {v39 : FVec Ideal S256 .f32}

/-- The eight tile columns stacked: the diagonal of the adjacency, as a column. -/
theorem pay15_apply (G : Given A v7 v10 v15 v20 v25 v30 v35 v39) (R : Fin 2048) (z : Fin 1) :
    k0_pay15 (F := Ideal) A v10 v15 v20 v25 v30 v35 v39 (ix2 R z) = adj A R R := by
  unfold k0_pay15
  have hR := R.isLt
  have hz : z = 0 := Fin.ext (by omega)
  have cases : R.val < 256 ∨ (256 ≤ R.val ∧ R.val < 512) ∨ (512 ≤ R.val ∧ R.val < 768) ∨ (768 ≤ R.val ∧ R.val < 1024)
      ∨ (1024 ≤ R.val ∧ R.val < 1280) ∨ (1280 ≤ R.val ∧ R.val < 1536) ∨ (1536 ≤ R.val ∧ R.val < 1792) ∨ (1792 ≤ R.val) := by omega
  rcases cases with h | h | h | h | h | h | h | h
  · refine (concatenate_apply_piece 0 _ _ (ix2 R z) 0 (by simp) S256x1 _ rfl rfl 0 (by rfl)
      (ix2 (⟨R.val - 0, by omega⟩ : Fin 256) z) (fun b hb => ?_) (by show 0 + (R.val - 0) = R.val; omega)).trans ?_
    · match b with
      | ⟨0, _⟩ => exact absurd rfl hb
      | ⟨1, _⟩ => rfl
    · exact G.h15 _ z R (by show R.val = 0 + (R.val - 0); omega)
  · refine (concatenate_apply_piece 0 _ _ (ix2 R z) 1 (by simp) S256x1 _ rfl rfl 256 (by rfl)
      (ix2 (⟨R.val - 256, by omega⟩ : Fin 256) z) (fun b hb => ?_) (by show 256 + (R.val - 256) = R.val; omega)).trans ?_
    · match b with
      | ⟨0, _⟩ => exact absurd rfl hb
      | ⟨1, _⟩ => rfl
    · exact G.h20 _ z R (by show R.val = 256 + (R.val - 256); omega)
  · refine (concatenate_apply_piece 0 _ _ (ix2 R z) 2 (by simp) S256x1 _ rfl rfl 512 (by rfl)
      (ix2 (⟨R.val - 512, by omega⟩ : Fin 256) z) (fun b hb => ?_) (by show 512 + (R.val - 512) = R.val; omega)).trans ?_
    · match b with
      | ⟨0, _⟩ => exact absurd rfl hb
      | ⟨1, _⟩ => rfl
    · exact G.h25 _ z R (by show R.val = 512 + (R.val - 512); omega)
  · refine (concatenate_apply_piece 0 _ _ (ix2 R z) 3 (by simp) S256x1 _ rfl rfl 768 (by rfl)
      (ix2 (⟨R.val - 768, by omega⟩ : Fin 256) z) (fun b hb => ?_) (by show 768 + (R.val - 768) = R.val; omega)).trans ?_
    · match b with
      | ⟨0, _⟩ => exact absurd rfl hb
      | ⟨1, _⟩ => rfl
    · exact G.h30 _ z R (by show R.val = 768 + (R.val - 768); omega)
  · refine (concatenate_apply_piece 0 _ _ (ix2 R z) 4 (by simp) S256x1 _ rfl rfl 1024 (by rfl)
      (ix2 (⟨R.val - 1024, by omega⟩ : Fin 256) z) (fun b hb => ?_) (by show 1024 + (R.val - 1024) = R.val; omega)).trans ?_
    · match b with
      | ⟨0, _⟩ => exact absurd rfl hb
      | ⟨1, _⟩ => rfl
    · exact G.h35 _ z R (by show R.val = 1024 + (R.val - 1024); omega)
  · refine (concatenate_apply_piece 0 _ _ (ix2 R z) 5 (by simp) S256x1 _ rfl rfl 1280 (by rfl)
      (ix2 (⟨R.val - 1280, by omega⟩ : Fin 256) z) (fun b hb => ?_) (by show 1280 + (R.val - 1280) = R.val; omega)).trans ?_
    · match b with
      | ⟨0, _⟩ => exact absurd rfl hb
      | ⟨1, _⟩ => rfl
    · refine (shapeCast_col_apply _ _ _ z).trans ?_
      exact G.h39 _ R (by show R.val = 1280 + (R.val - 1280); omega)
  · refine (concatenate_apply_piece 0 _ _ (ix2 R z) 6 (by simp) S256x1 _ rfl rfl 1536 (by rfl)
      (ix2 (⟨R.val - 1536, by omega⟩ : Fin 256) z) (fun b hb => ?_) (by show 1536 + (R.val - 1536) = R.val; omega)).trans ?_
    · match b with
      | ⟨0, _⟩ => exact absurd rfl hb
      | ⟨1, _⟩ => rfl
    · refine (shapeCast_col_apply _ _ _ z).trans ?_
      exact diagTile_apply A v10 G.h10 1536 (by norm_num) _ _ _ _ _ R (by show R.val = 1536 + (R.val - 1536); omega)
  · refine (concatenate_apply_piece 0 _ _ (ix2 R z) 7 (by simp) S256x1 _ rfl rfl 1792 (by rfl)
      (ix2 (⟨R.val - 1792, by omega⟩ : Fin 256) z) (fun b hb => ?_) (by show 1792 + (R.val - 1792) = R.val; omega)).trans ?_
    · match b with
      | ⟨0, _⟩ => exact absurd rfl hb
      | ⟨1, _⟩ => rfl
    · refine (shapeCast_col_apply _ _ _ z).trans ?_
      exact diagTile_apply A v10 G.h10 1792 (by norm_num) _ _ _ _ _ R (by show R.val = 1792 + (R.val - 1792); omega)

/-- The inverse square root of the degree: `d`. -/
theorem pay16_apply (G : Given A v7 v10 v15 v20 v25 v30 v35 v39) (R : Fin 2048) (z : Fin 1) :
    k0_pay16 (F := Ideal) A v7 v10 v15 v20 v25 v30 v35 v39 (ix2 R z) = dF (adj A) R := by
  unfold k0_pay16
  show Scalar.select (Ideal.cmp .ogt (v7 (ix2 R z) - k0_pay15 (F := Ideal) A v10 v15 v20 v25 v30 v35 v39 (ix2 R z)) (Ideal.ofBits .f32 0x00000000#32))
      (Ideal.rsqrt (Scalar.select (Ideal.cmp .ogt (v7 (ix2 R z) - k0_pay15 (F := Ideal) A v10 v15 v20 v25 v30 v35 v39 (ix2 R z)) (Ideal.ofBits .f32 0x00000000#32))
        (v7 (ix2 R z) - k0_pay15 (F := Ideal) A v10 v15 v20 v25 v30 v35 v39 (ix2 R z)) (Ideal.ofBits .f32 0x3F800000#32)))
      (Ideal.ofBits .f32 0x00000000#32) = _
  rw [G.h7, pay15_apply G, Ideal.ofBits_zero_f32, Ideal.ofBits_one_f32, select_gt, select_gt]
  rfl

/-- The coefficient `a₁ = d² · diag`. -/
theorem pay17_apply (G : Given A v7 v10 v15 v20 v25 v30 v35 v39) (R : Fin 2048) (z : Fin 1) :
    k0_pay17 (F := Ideal) A v7 v10 v15 v20 v25 v30 v35 v39 (ix2 R z) = a1F (adj A) R := by
  unfold k0_pay17
  show (k0_pay16 (F := Ideal) A v7 v10 v15 v20 v25 v30 v35 v39 (ix2 R z) * k0_pay16 (F := Ideal) A v7 v10 v15 v20 v25 v30 v35 v39 (ix2 R z))
      * k0_pay15 (F := Ideal) A v10 v15 v20 v25 v30 v35 v39 (ix2 R z) = _
  rw [pay16_apply G, pay15_apply G]
  rfl

end

end Cert.KernelIdeal.Pay

end
-- ==== Proof.KernelDots.lean ====
/-
  The kernel's three matrix products read at an index, at the extended reals, each into a zero accumulator:
  the product with the TRANSPOSED adjacency (both operands contracted on their first axis),
      (Aᵀ Z) (i, f) = ∑ r, A (r, i) · Z (r, f),
  and the plain products of a block of rows with a 256 × 256 weight matrix,
      (Y W) (i, j) = ∑ k, Y (i, k) · W (k, j),
  for blocks of 2048 and of 6144 rows.  Each is the sum over the one contracted coordinate, the operand indices
  read off the product's dimension numbers.
-/
import proofs.«122164_g54185307406511_cont_9to1_m_906_19_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-- The record, under a short name. -/
abbrev DT := dot_S2048x2048_S2048x256_S2048x256_0_0_1_1_n_n

theorem DT_lhs_n (i : S2048x256.Idx) (q : DT.contr.Idx) : (DT.lhsIdx i q 1).val = (i 0).val := by
  unfold DotDims.lhsIdx
  rw [dif_neg (show ¬(1 : Fin S2048x2048.rank) ∈ DT.lhsBatch by decide), dif_pos (show (1 : Fin S2048x2048.rank) ∈ DT.lhsNonContracting by decide)]
  rfl
theorem DT_lhs_c (i : S2048x256.Idx) (q : DT.contr.Idx) : (DT.lhsIdx i q 0).val = (q ⟨0, by decide⟩).val :=
  DT.lhsIdx_val_of_single rfl i q
theorem DT_rhs_c (i : S2048x256.Idx) (q : DT.contr.Idx) : (DT.rhsIdx i q 0).val = (q ⟨0, by decide⟩).val :=
  DT.rhsIdx_val_of_single rfl i q
theorem DT_rhs_n (i : S2048x256.Idx) (q : DT.contr.Idx) : (DT.rhsIdx i q 1).val = (i 1).val := by
  unfold DotDims.rhsIdx
  rw [dif_neg (show ¬(1 : Fin S2048x256.rank) ∈ DT.rhsBatch by decide), dif_pos (show (1 : Fin S2048x256.rank) ∈ DT.rhsNonContracting by decide)]
  rfl

/-- The transposed product: `(Aᵀ Z) (i, f) = ∑ r, A (r, i) · Z (r, f)`. -/
theorem matT_apply (l : FVec Ideal S2048x2048 .f32) (z : FVec Ideal S2048x256 .f32) (i : Fin 2048) (f : Fin 256) :
    matmul DT none l z (constant (F := Ideal) S2048x256 .f32 0x00000000#32) (ix2 i f)
      = ∑ r : Fin 2048, l (ix2 r i) * z (ix2 r f) := by
  simp only [matmul]
  rw [Ideal.matmul_constant_zero_apply, ← Equiv.sum_comp (contrEquiv1 DT 2048 rfl rfl).symm]
  refine Finset.sum_congr rfl fun k _ => ?_
  have hk := contrEquiv1_symm_val DT 2048 rfl rfl k
  have el : DT.lhsIdx (ix2 i f) ((contrEquiv1 DT 2048 rfl rfl).symm k) = ix2 k i := funext fun a => Fin.ext (by
    match a with
    | ⟨0, _⟩ => exact (DT_lhs_c _ _).trans hk
    | ⟨1, _⟩ => exact DT_lhs_n _ _)
  have er : DT.rhsIdx (ix2 i f) ((contrEquiv1 DT 2048 rfl rfl).symm k) = ix2 k f := funext fun a => Fin.ext (by
    match a with
    | ⟨0, _⟩ => exact (DT_rhs_c _ _).trans hk
    | ⟨1, _⟩ => exact DT_rhs_n _ _)
  rw [el, er]

/-- The record, under a short name. -/
abbrev DW := dot_S2048x256_S256x256_S2048x256_1_0_0_1_n_n

theorem DW_lhs_n (i : S2048x256.Idx) (q : DW.contr.Idx) : (DW.lhsIdx i q 0).val = (i 0).val := by
  unfold DotDims.lhsIdx
  rw [dif_neg (show ¬(0 : Fin S2048x256.rank) ∈ DW.lhsBatch by decide), dif_pos (show (0 : Fin S2048x256.rank) ∈ DW.lhsNonContracting by decide)]
  rfl
theorem DW_lhs_c (i : S2048x256.Idx) (q : DW.contr.Idx) : (DW.lhsIdx i q 1).val = (q ⟨0, by decide⟩).val :=
  DW.lhsIdx_val_of_single rfl i q
theorem DW_rhs_c (i : S2048x256.Idx) (q : DW.contr.Idx) : (DW.rhsIdx i q 0).val = (q ⟨0, by decide⟩).val :=
  DW.rhsIdx_val_of_single rfl i q
theorem DW_rhs_n (i : S2048x256.Idx) (q : DW.contr.Idx) : (DW.rhsIdx i q 1).val = (i 1).val := by
  unfold DotDims.rhsIdx
  rw [dif_neg (show ¬(1 : Fin S256x256.rank) ∈ DW.rhsBatch by decide), dif_pos (show (1 : Fin S256x256.rank) ∈ DW.rhsNonContracting by decide)]
  rfl

/-- A block of 2048 rows times a weight matrix: `(Y W) (i, j) = ∑ k, Y (i, k) · W (k, j)`. -/
theorem matW_apply (y : FVec Ideal S2048x256 .f32) (w : FVec Ideal S256x256 .f32) (i : Fin 2048) (j : Fin 256) :
    matmul DW none y w (constant (F := Ideal) S2048x256 .f32 0x00000000#32) (ix2 i j)
      = ∑ k : Fin 256, y (ix2 i k) * w (ix2 k j) := by
  simp only [matmul]
  rw [Ideal.matmul_constant_zero_apply, ← Equiv.sum_comp (contrEquiv1 DW 256 rfl rfl).symm]
  refine Finset.sum_congr rfl fun k _ => ?_
  have hk := contrEquiv1_symm_val DW 256 rfl rfl k
  have el : DW.lhsIdx (ix2 i j) ((contrEquiv1 DW 256 rfl rfl).symm k) = ix2 i k := funext fun a => Fin.ext (by
    match a with
    | ⟨0, _⟩ => exact DW_lhs_n _ _
    | ⟨1, _⟩ => exact (DW_lhs_c _ _).trans hk)
  have er : DW.rhsIdx (ix2 i j) ((contrEquiv1 DW 256 rfl rfl).symm k) = ix2 k j := funext fun a => Fin.ext (by
    match a with
    | ⟨0, _⟩ => exact (DW_rhs_c _ _).trans hk
    | ⟨1, _⟩ => exact DW_rhs_n _ _)
  rw [el, er]

/-- The record, under a short name. -/
abbrev DW6 := dot_S6144x256_S256x256_S6144x256_1_0_0_1_n_n

theorem DW6_lhs_n (i : S6144x256.Idx) (q : DW6.contr.Idx) : (DW6.lhsIdx i q 0).val = (i 0).val := by
  unfold DotDims.lhsIdx
  rw [dif_neg (show ¬(0 : Fin S6144x256.rank) ∈ DW6.lhsBatch by decide), dif_pos (show (0 : Fin S6144x256.rank) ∈ DW6.lhsNonContracting by decide)]
  rfl
theorem DW6_lhs_c (i : S6144x256.Idx) (q : DW6.contr.Idx) : (DW6.lhsIdx i q 1).val = (q ⟨0, by decide⟩).val :=
  DW6.lhsIdx_val_of_single rfl i q
theorem DW6_rhs_c (i : S6144x256.Idx) (q : DW6.contr.Idx) : (DW6.rhsIdx i q 0).val = (q ⟨0, by decide⟩).val :=
  DW6.rhsIdx_val_of_single rfl i q
theorem DW6_rhs_n (i : S6144x256.Idx) (q : DW6.contr.Idx) : (DW6.rhsIdx i q 1).val = (i 1).val := by
  unfold DotDims.rhsIdx
  rw [dif_neg (show ¬(1 : Fin S256x256.rank) ∈ DW6.rhsBatch by decide), dif_pos (show (1 : Fin S256x256.rank) ∈ DW6.rhsNonContracting by decide)]
  rfl

/-- A block of 6144 rows times a weight matrix. -/
theorem matW6_apply (y : FVec Ideal S6144x256 .f32) (w : FVec Ideal S256x256 .f32) (i : Fin 6144) (j : Fin 256) :
    matmul DW6 none y w (constant (F := Ideal) S6144x256 .f32 0x00000000#32) (ix2 i j)
      = ∑ k : Fin 256, y (ix2 i k) * w (ix2 k j) := by
  simp only [matmul]
  rw [Ideal.matmul_constant_zero_apply, ← Equiv.sum_comp (contrEquiv1 DW6 256 rfl rfl).symm]
  refine Finset.sum_congr rfl fun k _ => ?_
  have hk := contrEquiv1_symm_val DW6 256 rfl rfl k
  have el : DW6.lhsIdx (ix2 i j) ((contrEquiv1 DW6 256 rfl rfl).symm k) = ix2 i k := funext fun a => Fin.ext (by
    match a with
    | ⟨0, _⟩ => exact DW6_lhs_n _ _
    | ⟨1, _⟩ => exact (DW6_lhs_c _ _).trans hk)
  have er : DW6.rhsIdx (ix2 i j) ((contrEquiv1 DW6 256 rfl rfl).symm k) = ix2 k j := funext fun a => Fin.ext (by
    match a with
    | ⟨0, _⟩ => exact (DW6_rhs_c _ _).trans hk
    | ⟨1, _⟩ => exact DW6_rhs_n _ _)
  rw [el, er]

end Cert.KernelIdeal.Dots

end
-- ==== Proof.KernelPay2.lean ====
/-
  The kernel body's large quantities read at an index, at the extended reals: one and two applications of the
  factored operator (`a₁ y − d · (Aᵀ (d · y))`), and the two stored blocks — the first graph's rows, three products
  summed with the bias, and the later rows, one product with the bias.
-/
import proofs.«122164_g54185307406511_cont_9to1_m_906_19_alg».proof.Proof.KernelPay
import proofs.«122164_g54185307406511_cont_9to1_m_906_19_alg».proof.Proof.KernelDots

noncomputable section

open scoped BigOperators

namespace Cert.KernelIdeal.Pay

open Cert.KernelIdeal Cert.KernelIdeal.Gen Idealize.ShloMosaic Idealize.ShloMosaic.ValueIdx Cert.VecRead Cert.ChebSpec
open Cert.KernelIdeal.Dots

section
variable {A : FVec Ideal S2048x2048 .f32} {v7 : FVec Ideal S2048x1 .f32} {v10 : IVec S256x256 1}
  {v15 v20 v25 v30 v35 : FVec Ideal S256x1 .f32} {v39 : FVec Ideal S256 .f32}

/-- A block of rows by coordinates. -/
abbrev rows (y : FVec Ideal S2048x256 .f32) (i : Fin 2048) (f : Fin 256) : EReal := y (ix2 i f)

/-- The factored operator applied to a block `y`, whatever `y` is: the shape shared by the two steps. -/
theorem step_apply (G : Given A v7 v10 v15 v20 v25 v30 v35 v39) (y : FVec Ideal S2048x256 .f32) (i : Fin 2048) (f : Fin 256) :
    subf (mulf (broadcastTo S2048x256 (k0_pay17 (F := Ideal) A v7 v10 v15 v20 v25 v30 v35 v39) broadcasts_S2048x1_S2048x256) y)
        (mulf (broadcastTo S2048x256 (k0_pay16 (F := Ideal) A v7 v10 v15 v20 v25 v30 v35 v39) broadcasts_S2048x1_S2048x256)
          (matmul dot_S2048x2048_S2048x256_S2048x256_0_0_1_1_n_n none A
            (mulf (broadcastTo S2048x256 (k0_pay16 (F := Ideal) A v7 v10 v15 v20 v25 v30 v35 v39) broadcasts_S2048x1_S2048x256) y)
            (constant (F := Ideal) S2048x256 .f32 0x00000000#32))) (ix2 i f)
      = stepF (adj A) (rows y) i f := by
  rw [subf_apply, mulf_apply, mulf_apply, broadcastTo_col_apply, broadcastTo_col_apply, pay17_apply G, pay16_apply G]
  refine congrArg (fun s => a1F (adj A) i * y (ix2 i f) - dF (adj A) i * s) ?_
  refine (matT_apply A _ i f).trans ?_
  refine Finset.sum_congr rfl fun r _ => ?_
  rw [mulf_apply, broadcastTo_col_apply, pay16_apply G]

/-- One application of the operator to the first graph's rows. -/
theorem pay18_apply (G : Given A v7 v10 v15 v20 v25 v30 v35 v39) (v3 : FVec Ideal S2048x256 .f32) (i : Fin 2048) (f : Fin 256) :
    k0_pay18 (F := Ideal) A v3 v7 v10 v15 v20 v25 v30 v35 v39 (ix2 i f) = stepF (adj A) (rows v3) i f := by
  unfold k0_pay18
  exact step_apply G v3 i f

/-- Two applications. -/
theorem pay19_apply (G : Given A v7 v10 v15 v20 v25 v30 v35 v39) (v3 : FVec Ideal S2048x256 .f32) (i : Fin 2048) (f : Fin 256) :
    k0_pay19 (F := Ideal) A v3 v7 v10 v15 v20 v25 v30 v35 v39 (ix2 i f) = stepF (adj A) (stepF (adj A) (rows v3)) i f := by
  unfold k0_pay19
  refine (step_apply G (k0_pay18 (F := Ideal) A v3 v7 v10 v15 v20 v25 v30 v35 v39) i f).trans ?_
  exact congrArg (fun y => stepF (adj A) y i f) (funext fun r => funext fun g => pay18_apply G v3 r g)

end

/-- The first stored block: rows of the first graph. `v3` the rows, `v71`, `v79` the operator applied once and twice,
    `v81`, `v86`, `v90`/`v83` the three weight slices as loaded (each with a leading unit axis), `v5` the bias row. -/
theorem pay2_apply (v3 : FVec Ideal S2048x256 .f32) (v5 : FVec Ideal S1x256 .f32) (v71 v79 : FVec Ideal S2048x256 .f32)
    (v81 v83 : FVec Ideal S256x256 .f32) (v86 v90 : Vec Ideal S1x256x256 .f32) (i : Fin 2048) (j : Fin 256) :
    k0_pay2 (F := Ideal) v3 v5 v71 v79 v81 v83 v86 v90 (ix2 i j)
      = (((∑ k : Fin 256, v3 (ix2 i k) * (v81 (ix2 k j) - v83 (ix2 k j)))
          + ∑ k : Fin 256, v71 (ix2 i k) * v86 (ix3 (0 : Fin 1) k j))
          + ∑ k : Fin 256, v79 (ix2 i k) * (((2 : ℝ) : EReal) * v90 (ix3 (0 : Fin 1) k j)))
        + v5 (ix2 (0 : Fin 1) j) := by
  unfold k0_pay2 k0_pay1
  rw [addf_apply, addf_apply, addf_apply, broadcastTo_1b_ab_apply]
  refine congrArg (· + v5 (ix2 (0 : Fin 1) j)) ?_
  refine congrArg₂ (· + ·) (congrArg₂ (· + ·) ?_ ?_) ?_
  · refine (matW_apply v3 _ i j).trans (Finset.sum_congr rfl fun k _ => ?_)
    rw [subf_apply]
  · refine (matW_apply v71 _ i j).trans (Finset.sum_congr rfl fun k _ => ?_)
    rw [shapeCast_1ab_ab_apply]
  · refine (matW_apply v79 _ i j).trans (Finset.sum_congr rfl fun k _ => ?_)
    rw [mulf_apply, broadcast_apply, shapeCast_1ab_ab_apply]
    show v79 (ix2 i k) * (Ideal.ofBits .f32 0x40000000#32 * _) = _
    rw [ofBits_two]

/-- The second stored block: the rows below the first graph. `v2` all 8192 rows. -/
theorem pay3_apply (v2 : FVec Ideal S8192x256 .f32) (v5 : FVec Ideal S1x256 .f32) (v81 v83 : FVec Ideal S256x256 .f32)
    (p : Fin 6144) (j : Fin 256) (I : Fin 8192) (hI : I.val = 2048 + p.val) :
    k0_pay3 (F := Ideal) v2 v5 v81 v83 (ix2 p j)
      = (∑ k : Fin 256, v2 (ix2 I k) * (v81 (ix2 k j) - v83 (ix2 k j))) + v5 (ix2 (0 : Fin 1) j) := by
  unfold k0_pay3 k0_pay1
  rw [addf_apply, broadcastTo_1b_ab_apply]
  refine congrArg (· + v5 (ix2 (0 : Fin 1) j)) ?_
  refine (matW6_apply _ _ p j).trans (Finset.sum_congr rfl fun k _ => ?_)
  rw [subf_apply, slice2_apply 2048 0 v2 _ p k I k hI (by omega)]

end Cert.KernelIdeal.Pay

end
-- ==== Proof.KernelOut.lean ====
/-
  What the kernel body leaves in the output buffer (8192 × 256), as one function of the four blocks it loads:
  entry (i, j) is the factored form `outF` of the convolution at (i, j).  The body stores twice — rows 0…2047 (the
  first graph) and rows 2048…8191 — and each store's payload, read at an index of its rectangle, is `outF` at the
  buffer index under it; the two rectangles cover the buffer.
-/
import proofs.«122164_g54185307406511_cont_9to1_m_906_19_alg».proof.Proof.Gen.KernelIdeal.Frame
import proofs.«122164_g54185307406511_cont_9to1_m_906_19_alg».proof.Proof.KernelPay2
import Idealize.ShloMosaic.Lib.Pipeline.Value
import Idealize.ShloMosaic.Lib.Tactic

noncomputable section

open scoped BigOperators

namespace Cert.KernelIdeal.Out

open Cert.KernelIdeal Cert.KernelIdeal.Gen Idealize.ShloMosaic Idealize.ShloMosaic.TcCoe Idealize.ShloMosaic.ValueIdx
open Cert.VecRead Cert.ChebSpec Cert.KernelIdeal.Pay Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## The convolution's inputs, from the loaded blocks -/

/-- The features: the data block with its two leading axes merged, by row and feature. -/
abbrev xOf (x0 : Vec Ideal S4x2048x256 .f32) : Fin 8192 → Fin 256 → EReal := fun i k => k0_pay4 (F := Ideal) x0 (ix2 i k)
/-- The three weight matrices. -/
abbrev wOf (x2 : Vec Ideal S3x256x256 .f32) : Fin 3 → Fin 256 → Fin 256 → EReal := fun t k j => x2 (ix3 t k j)
/-- The bias, from its one-row block. -/
abbrev bOf (x3 : Vec Ideal S1x256 .f32) : Fin 256 → EReal := fun j => x3 (ix2 (0 : Fin 1) j)

/-- The output buffer's contents. -/
def G (x0 : Vec Ideal S4x2048x256 .f32) (x1 : Vec Ideal S2048x2048 .f32) (x2 : Vec Ideal S3x256x256 .f32) (x3 : Vec Ideal S1x256 .f32) :
    S8192x256.Idx → EReal :=
  fun y => outF (adj x1) (xOf x0) (wOf x2) (bOf x3) (y 0) (y 1)

theorem G_apply (x0 : Vec Ideal S4x2048x256 .f32) (x1 : Vec Ideal S2048x2048 .f32) (x2 : Vec Ideal S3x256x256 .f32) (x3 : Vec Ideal S1x256 .f32)
    (i : Fin 8192) (j : Fin 256) : G x0 x1 x2 x3 (ix2 i j) = outF (adj x1) (xOf x0) (wOf x2) (bOf x3) i j := rfl

/-! ## The small loads -/

/-- One weight matrix loaded as a 1 × 256 × 256 block. -/
theorem ldW (x2 : Vec Ideal S3x256x256 .f32) (t : ℕ) (ht : t < 3) (inb : ∀ a, (![t, 0, 0] : Fin 3 → ℕ) a + (![1, 256, 256] : Fin 3 → ℕ) a ≤ S3x256x256.size a)
    (u : Fin 1) (k j : Fin 256) :
    View.ld x2 (Rect.unit (s := S3x256x256) ![t, 0, 0] ![1, 256, 256] inb) (ix3 u k j) = x2 (ix3 (⟨t, ht⟩ : Fin 3) k j) := by
  show x2 ((Rect.unit (s := S3x256x256) ![t, 0, 0] ![1, 256, 256] inb).idx (ix3 u k j)) = _
  refine congrArg x2 (funext fun a => Fin.ext ?_)
  have hu : u.val = 0 := by omega
  match a with
  | ⟨0, _⟩ => show t + 1 * u.val = t; omega
  | ⟨1, _⟩ => show 0 + 1 * k.val = k.val; omega
  | ⟨2, _⟩ => show 0 + 1 * j.val = j.val; omega

theorem pay20_ld (x2 : Vec Ideal S3x256x256 .f32) (t : ℕ) (ht : t < 3) (inb : ∀ a, (![t, 0, 0] : Fin 3 → ℕ) a + (![1, 256, 256] : Fin 3 → ℕ) a ≤ S3x256x256.size a)
    (k j : Fin 256) :
    k0_pay20 (F := Ideal) (View.ld x2 (Rect.unit (s := S3x256x256) ![t, 0, 0] ![1, 256, 256] inb)) (ix2 k j) = x2 (ix3 (⟨t, ht⟩ : Fin 3) k j) := by
  unfold k0_pay20
  exact (shapeCast_1ab_ab_apply _ _ k j).trans (ldW x2 t ht inb 0 k j)

theorem pay21_ld (x2 : Vec Ideal S3x256x256 .f32) (t : ℕ) (ht : t < 3) (inb : ∀ a, (![t, 0, 0] : Fin 3 → ℕ) a + (![1, 256, 256] : Fin 3 → ℕ) a ≤ S3x256x256.size a)
    (k j : Fin 256) :
    k0_pay21 (F := Ideal) (View.ld x2 (Rect.unit (s := S3x256x256) ![t, 0, 0] ![1, 256, 256] inb)) (ix2 k j) = x2 (ix3 (⟨t, ht⟩ : Fin 3) k j) := by
  unfold k0_pay21
  exact (shapeCast_1ab_ab_apply _ _ k j).trans (ldW x2 t ht inb 0 k j)

theorem pay6_eq (x3 : Vec Ideal S1x256 .f32) : k0_pay6 (F := Ideal) x3 = x3 := by
  unfold k0_pay6
  exact shapeCast_self _ _

/-- The first graph's rows of the merged data block. -/
theorem pay5_apply (x0 : Vec Ideal S4x2048x256 .f32) (i : Fin 2048) (k : Fin 256) :
    k0_pay5 (F := Ideal) x0 (ix2 i k) = top (xOf x0) i k := by
  unfold k0_pay5
  exact slice2_apply 0 0 (k0_pay4 (F := Ideal) x0) _ i k ⟨i.val, by have := i.isLt; omega⟩ k (by simp) (by simp)

theorem rows_pay5 (x0 : Vec Ideal S4x2048x256 .f32) : rows (k0_pay5 (F := Ideal) x0) = top (xOf x0) :=
  funext fun i => funext fun k => pay5_apply x0 i k

/-! ## The two stores -/

/-- The block of rows 2048 + q of the merged data, the weights and the bias give `outF` at a later row. -/
theorem low_rows (x0 : Vec Ideal S4x2048x256 .f32) (x1 : Vec Ideal S2048x2048 .f32) (x2 : Vec Ideal S3x256x256 .f32) (x3 : Vec Ideal S1x256 .f32)
    (inb0 : ∀ a, (![0, 0, 0] : Fin 3 → ℕ) a + (![1, 256, 256] : Fin 3 → ℕ) a ≤ S3x256x256.size a)
    (inb2 : ∀ a, (![2, 0, 0] : Fin 3 → ℕ) a + (![1, 256, 256] : Fin 3 → ℕ) a ≤ S3x256x256.size a)
    (q : Fin 6144) (j : Fin 256) (I : Fin 8192) (hI : I.val = 2048 + q.val) :
    k0_pay3 (F := Ideal) (k0_pay4 (F := Ideal) x0) (k0_pay6 (F := Ideal) x3)
        (k0_pay20 (F := Ideal) (View.ld x2 (Rect.unit (s := S3x256x256) ![0, 0, 0] ![1, 256, 256] inb0)))
        (k0_pay21 (F := Ideal) (View.ld x2 (Rect.unit (s := S3x256x256) ![2, 0, 0] ![1, 256, 256] inb2))) (ix2 q j)
      = outF (adj x1) (xOf x0) (wOf x2) (bOf x3) I j := by
  refine (pay3_apply _ _ _ _ q j I hI).trans ?_
  unfold outF
  rw [dif_neg (by omega : ¬ I.val < 2048), pay6_eq]
  refine congrArg (· + bOf x3 j) (Finset.sum_congr rfl fun k _ => ?_)
  rw [pay20_ld x2 0 (by norm_num) inb0, pay21_ld x2 2 (by norm_num) inb2]
  rfl

/-- The first graph's rows. -/
theorem top_rows (x0 : Vec Ideal S4x2048x256 .f32) (x1 : Vec Ideal S2048x2048 .f32) (x2 : Vec Ideal S3x256x256 .f32) (x3 : Vec Ideal S1x256 .f32)
    (inb0 : ∀ a, (![0, 0, 0] : Fin 3 → ℕ) a + (![1, 256, 256] : Fin 3 → ℕ) a ≤ S3x256x256.size a)
    (inb1 : ∀ a, (![1, 0, 0] : Fin 3 → ℕ) a + (![1, 256, 256] : Fin 3 → ℕ) a ≤ S3x256x256.size a)
    (inb2 : ∀ a, (![2, 0, 0] : Fin 3 → ℕ) a + (![1, 256, 256] : Fin 3 → ℕ) a ≤ S3x256x256.size a)
    (i : Fin 2048) (j : Fin 256) (I : Fin 8192) (hI : I.val = i.val) :
    k0_pay2 (F := Ideal) (k0_pay5 (F := Ideal) x0) (k0_pay6 (F := Ideal) x3)
        (k0_pay18 (F := Ideal) x1 (k0_pay5 (F := Ideal) x0) (k0_pay7 (F := Ideal) x1) k0_pay8 (k0_pay9 (F := Ideal) x1) (k0_pay10 (F := Ideal) x1) (k0_pay11 (F := Ideal) x1) (k0_pay12 (F := Ideal) x1) (k0_pay13 (F := Ideal) x1) (k0_pay14 (F := Ideal) x1))
        (k0_pay19 (F := Ideal) x1 (k0_pay5 (F := Ideal) x0) (k0_pay7 (F := Ideal) x1) k0_pay8 (k0_pay9 (F := Ideal) x1) (k0_pay10 (F := Ideal) x1) (k0_pay11 (F := Ideal) x1) (k0_pay12 (F := Ideal) x1) (k0_pay13 (F := Ideal) x1) (k0_pay14 (F := Ideal) x1))
        (k0_pay20 (F := Ideal) (View.ld x2 (Rect.unit (s := S3x256x256) ![0, 0, 0] ![1, 256, 256] inb0)))
        (k0_pay21 (F := Ideal) (View.ld x2 (Rect.unit (s := S3x256x256) ![2, 0, 0] ![1, 256, 256] inb2)))
        (View.ld x2 (Rect.unit (s := S3x256x256) ![1, 0, 0] ![1, 256, 256] inb1))
        (View.ld x2 (Rect.unit (s := S3x256x256) ![2, 0, 0] ![1, 256, 256] inb2)) (ix2 i j)
      = outF (adj x1) (xOf x0) (wOf x2) (bOf x3) I j := by
  refine (pay2_apply _ _ _ _ _ _ _ _ i j).trans ?_
  have hlt : I.val < 2048 := by have := i.isLt; omega
  have hIi : (⟨I.val, hlt⟩ : Fin 2048) = i := Fin.ext hI
  unfold outF
  rw [dif_pos hlt, pay6_eq, hIi]
  refine congrArg (· + bOf x3 j) ?_
  refine congrArg₂ (· + ·) (congrArg₂ (· + ·) ?_ ?_) ?_
  · refine Finset.sum_congr rfl fun k _ => ?_
    rw [pay5_apply, pay20_ld x2 0 (by norm_num) inb0, pay21_ld x2 2 (by norm_num) inb2]
    rfl
  · refine Finset.sum_congr rfl fun k _ => ?_
    rw [pay18_apply (given x1), rows_pay5, ldW x2 1 (by norm_num) inb1]
    rfl
  · refine Finset.sum_congr rfl fun k _ => ?_
    rw [pay19_apply (given x1), rows_pay5, ldW x2 2 (by norm_num) inb2]
    rfl

/-- What the body leaves in the output buffer is `G` of the four loaded blocks. -/
theorem out_eq (c : Dev nD) (arg0 : Memref sig .tc .vmem S4x2048x256 .f32) (harg0 : arg0.IsWhole) (arg1 : Memref sig .tc .vmem S2048x2048 .f32) (harg1 : arg1.IsWhole)
    (arg2 : Memref sig .tc .vmem S3x256x256 .f32) (harg2 : arg2.IsWhole) (arg3 : Memref sig .tc .vmem S1x256 .f32) (harg3 : arg3.IsWhole)
    (arg4 : Memref sig .tc .vmem S8192x256 .f32) (harg4 : arg4.IsWhole)
    (x0 : Vec Ideal S4x2048x256 .f32) (x1 : Vec Ideal S2048x2048 .f32) (x2 : Vec Ideal S3x256x256 .f32) (x3 : Vec Ideal S1x256 .f32) :
    out0_A_4 (F := Ideal) c arg0 harg0 arg1 harg1 arg2 harg2 arg3 harg3 arg4 harg4 x0 x1 x2 x3 = G x0 x1 x2 x3 := by
  unfold out0_A_4
  rw [View.read_writes_eq_canon _ _ _ (cover0_A_4 c arg0 harg0 arg1 harg1 arg2 harg2 arg3 harg3 arg4 harg4 x0 x1 x2 x3)]
  funext y
  refine View.canon_apply_of_pieces (G x0 x1 x2 x3) _ ?_ y (cover0_A_4 c arg0 harg0 arg1 harg1 arg2 harg2 arg3 harg3 arg4 harg4 x0 x1 x2 x3 y)
  unfold kernelRun0_A
  dsimp only
  sl_unfold_words
  intro p hp
  simp only [List.mem_cons, List.not_mem_nil, or_false] at hp
  rcases hp with rfl | rfl
  · intro x
    obtain ⟨q, j, rfl⟩ : ∃ (q : Fin 6144) (j : Fin 256), x = ix2 q j := ⟨x 0, x 1, eq_ix2 x⟩
    dsimp only
    simp only [View.readAt_eq_ld, harg0.read_unread, harg2.read_unread, harg3.read_unread,
      View.ld_unit_zero (S := S4x2048x256) hz3, View.ld_unit_zero (S := S1x256) hz2]
    refine (low_rows x0 x1 x2 x3 _ _ q j ⟨2048 + q.val, by have := q.isLt; omega⟩ rfl).trans ?_
    show _ = outF (adj x1) (xOf x0) (wOf x2) (bOf x3) _ _
    refine congrArg₂ (outF (adj x1) (xOf x0) (wOf x2) (bOf x3)) (Fin.ext ?_) (Fin.ext ?_)
    · show 2048 + q.val = 2048 + 1 * q.val; omega
    · show j.val = 0 + 1 * j.val; omega
  · intro x
    obtain ⟨i, j, rfl⟩ : ∃ (i : Fin 2048) (j : Fin 256), x = ix2 i j := ⟨x 0, x 1, eq_ix2 x⟩
    dsimp only
    simp only [View.readAt_eq_ld, harg0.read_unread, harg1.read_unread, harg2.read_unread, harg3.read_unread,
      View.ld_unit_zero (S := S4x2048x256) hz3, View.ld_unit_zero (S := S2048x2048) hz2, View.ld_unit_zero (S := S1x256) hz2]
    refine (top_rows x0 x1 x2 x3 _ _ _ i j ⟨i.val, by have := i.isLt; omega⟩ rfl).trans ?_
    show _ = outF (adj x1) (xOf x0) (wOf x2) (bOf x3) _ _
    refine congrArg₂ (outF (adj x1) (xOf x0) (wOf x2) (bOf x3)) (Fin.ext ?_) (Fin.ext ?_)
    · show i.val = 0 + 1 * i.val; omega
    · show j.val = 0 + 1 * j.val; omega

end Cert.KernelIdeal.Out

end
-- ==== Proof.KernelRun.lean ====
/-
  The kernel program's run, read as a value: every window of the one launch is its whole array and the grid has
  one point, so each input block is the array as the launch finds it, what the body leaves in the output buffer is
  written back whole, and the program's result is that array (8192 × 256) viewed as 4 × 2048 × 256.  The bias enters
  as a 1 × 256 row, made from the bias vector before the launch.
-/
import proofs.«122164_g54185307406511_cont_9to1_m_906_19_alg».proof.Proof.Gen.KernelIdeal.Frame
import proofs.«122164_g54185307406511_cont_9to1_m_906_19_alg».proof.Proof.KernelOut
import Idealize.ShloMosaic.Lib.Pipeline.Value
import Idealize.ShloMosaic.Lib.StableHlo.Run
import Idealize.ShloMosaic.Lib.Tactic

noncomputable section

open scoped BigOperators

namespace Cert.KernelIdeal.RunValue

open Cert.KernelIdeal Cert.KernelIdeal.Gen Idealize.ShloMosaic Idealize.ShloMosaic.TcCoe Idealize.ShloMosaic.ValueIdx
open Cert.ChebSpec Cert.KernelIdeal.Out Idealize.SL.Sem
open Idealize.ShloMosaic.Pipeline (Dat)

variable (m : (ℓ : Loc nD τ sig) → Buf (Elt Ideal) ℓ) (ρ : Dev nD → PrngReg)

/-! ## Each input block is its whole array -/

theorem iblk0 (c : Dev nD) (t : Fin cfg0.N) : iblk m c 0 t = V m c main_arg0 := by
  obtain rfl : t = t0_0 := fin_N0 t
  unfold iblk
  have hz' : (fun a => win0_0.index t0_0 a * main_arg0.ty.shape.size a) = fun _ => 0 := funext fun a => by fin_cases a <;> decide
  exact Memref.read_access_unit_zero (Elt Ideal) main_arg0 hz' (fun a => by rw [congrFun hz' a]; simp) (V m c main_arg0)

theorem iblk1 (c : Dev nD) (t : Fin cfg0.N) : iblk m c 1 t = V m c main_arg1 := by
  obtain rfl : t = t0_0 := fin_N0 t
  unfold iblk
  have hz' : (fun a => win0_1.index t0_0 a * main_arg1.ty.shape.size a) = fun _ => 0 := funext fun a => by fin_cases a <;> decide
  exact Memref.read_access_unit_zero (Elt Ideal) main_arg1 hz' (fun a => by rw [congrFun hz' a]; simp) (V m c main_arg1)

theorem iblk2 (c : Dev nD) (t : Fin cfg0.N) : iblk m c 2 t = V m c main_arg2 := by
  obtain rfl : t = t0_0 := fin_N0 t
  unfold iblk
  have hz' : (fun a => win0_2.index t0_0 a * main_arg2.ty.shape.size a) = fun _ => 0 := funext fun a => by fin_cases a <;> decide
  exact Memref.read_access_unit_zero (Elt Ideal) main_arg2 hz' (fun a => by rw [congrFun hz' a]; simp) (V m c main_arg2)

theorem iblk3 (c : Dev nD) (t : Fin cfg0.N) : iblk m c 3 t = V m c main_v0 := by
  obtain rfl : t = t0_0 := fin_N0 t
  unfold iblk
  have hz' : (fun a => win0_3.index t0_0 a * main_v0.ty.shape.size a) = fun _ => 0 := funext fun a => by fin_cases a <;> decide
  exact Memref.read_access_unit_zero (Elt Ideal) main_v0 hz' (fun a => by rw [congrFun hz' a]; simp) (V m c main_v0)

/-! ## The output array after the launch -/

/-- The output array: the convolution of the arrays as the launch finds them. -/
def Gfin (c : Dev nD) : S8192x256.Idx → EReal :=
  G (V m c main_arg0) (V m c main_arg1) (V m c main_arg2) (V m c main_v0)

/-- What the one point writes back is the whole of it. -/
theorem flushed_eq (c : Dev nD) (t : Fin cfg0.N) :
    (dats m 0 c).flushed 4 t = ((cfg0.win 4).blk t).view.read (Elt Ideal) (Gfin m c) := by
  obtain rfl : t = t0_0 := fin_N0 t
  show (cfg0.win 4).cut (grid0.coords t0_0) ((dats m 0 c).after 4 t0_0) = _
  rw [after0_4]
  unfold outsAt0
  rw [out_eq, iblk0, iblk1, iblk2, iblk3]
  have hz' : (fun a => win0_4.index t0_0 a * main_v1.ty.shape.size a) = fun _ => 0 := funext fun a => by fin_cases a <;> decide
  exact (Memref.read_access_unit_zero (Elt Ideal) main_v1 hz' (fun a => by rw [congrFun hz' a]; simp) (Gfin m c)).symm

/-- So the output array ends holding it. -/
theorem final (c : Dev nD) : (dats m 0 c).arrAt 4 cfg0.N = Gfin m c :=
  (dats m 0 c).arrAt_eq_of_cover 4 (Gfin m c) (fun t _ => flushed_eq m c t) fun i =>
    ⟨t0_0, flush0_4 t0_0, by
      show i ∈ ((View.whole main_v1).slice (win0_4.rect t0_0)).set
      rw [View.set_slice_whole, Rect.mem_set_unit]
      intro a
      have h0 : (i 0 : Nat) < 8192 := (i 0).isLt
      have h1 : (i 1 : Nat) < 256 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 8192 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 256 from by decide +kernel]; omega⟩

/-! ## Around the launch -/

/-- The bias row the launch finds: the bias vector viewed as one row. -/
theorem V_bias (c : Dev nD) :
    (V m c main_v0 : S1x256.Idx → EReal) = shapeCast S1x256 (m ((c : Thread nD τ).loc main_arg3)) shapeCasts_S256_S1x256 := by
  show StableHlo.after hostOps0 (fun b => m (c, b)) (Proc.devRef .tc main_v0) = _
  after_results
  rfl

/-- The program's result: the output array viewed as 4 × 2048 × 256. -/
theorem tail (c : Dev nD) :
    Pipeline.afterTail₀ cfgs (dats m) 0 (V0 m) [hostOps1] c main_v2
      = shapeCast S4x2048x256 (Gfin m c) shapeCasts_S8192x256_S4x2048x256 := by
  unfold Pipeline.afterTail₀
  show StableHlo.after hostOps1 _ (Proc.devRef .tc main_v2) = _
  after_results
  exact congrArg (fun X => shapeCast S4x2048x256 X shapeCasts_S8192x256_S4x2048x256)
    ((Pipeline.withArrays_arr spec0 launch0.win.arr_inj c _ _ 4).trans (final m c))

/-- The convolution of the arrays the program is launched with. -/
def result (c : Dev nD) : S4x2048x256.Idx → EReal :=
  shapeCast S4x2048x256
    (G (m ((c : Thread nD τ).loc main_arg0)) (m ((c : Thread nD τ).loc main_arg1)) (m ((c : Thread nD τ).loc main_arg2))
      (shapeCast S1x256 (m ((c : Thread nD τ).loc main_arg3)) shapeCasts_S256_S1x256))
    shapeCasts_S8192x256_S4x2048x256

theorem Gfin_eq (c : Dev nD) :
    Gfin m c = G (m ((c : Thread nD τ).loc main_arg0)) (m ((c : Thread nD τ).loc main_arg1)) (m ((c : Thread nD τ).loc main_arg2))
      (shapeCast S1x256 (m ((c : Thread nD τ).loc main_arg3)) shapeCasts_S256_S1x256) := by
  unfold Gfin
  rw [V_main_arg0, V_main_arg1, V_main_arg2, V_bias]

/-- Every weakly fair execution of the kernel program ends with its result at the convolution of its arguments,
    the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans
        ((tail m c).trans (by unfold result; rw [Gfin_eq])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.RunValue

end
-- ==== Proof.RefRows.lean ====
/-
  The reference program read at an index: the array it holds before its last reshape, element (i, j), is the
  operator form `outM` of the Chebyshev graph convolution at (i, j).

  One small lemma per named quantity, each at explicit coordinates: the identity mask, the adjacency with its
  diagonal removed, the degree, the guarded reciprocal square root, the operator's entry, one and two applications
  of the operator with their zero padding, the three products with the weight slices, and the bias.
-/
import proofs.«122164_g54185307406511_cont_9to1_m_906_19_alg».proof.Proof.Gen.ReferenceIdeal.Read
import proofs.«122164_g54185307406511_cont_9to1_m_906_19_alg».proof.Proof.ChebSpec
import Idealize.ShloMosaic.Lib.IdealHost
import Idealize.ShloMosaic.Lib.ValueIdx
import Idealize.ShloMosaic.Lib.Pipeline.Value
import Idealize.ShloMosaic.PureOps.Ideal.Laws

noncomputable section

open scoped BigOperators

namespace Cert.ReferenceIdeal.RefRows

open Idealize.ShloMosaic Idealize.ShloMosaic.ValueIdx Cert.ReferenceIdeal Cert.ReferenceIdeal.Read Cert.ChebSpec

/-! ## The four inputs as functions of coordinates -/

/-- The adjacency weights by row and column. -/
abbrev aOf (x1 : (⟨S2048x2048, .f32⟩ : BufTy).Contents (Elt Ideal)) : Fin 2048 → Fin 2048 → EReal :=
  fun r c => x1 (ix2 r c)
/-- The node features of the four stacked graphs, by row and feature. -/
abbrev xOf (x0 : (⟨S4x2048x256, .f32⟩ : BufTy).Contents (Elt Ideal)) : Fin 8192 → Fin 256 → EReal :=
  fun i k => val_main_v27 (F := Ideal) x0 (ix2 i k)
/-- The three weight matrices. -/
abbrev wOf (x2 : (⟨S3x256x256, .f32⟩ : BufTy).Contents (Elt Ideal)) : Fin 3 → Fin 256 → Fin 256 → EReal :=
  fun t k j => x2 (ix3 t k j)
/-- The bias. -/
abbrev bOf (x3 : (⟨S256, .f32⟩ : BufTy).Contents (Elt Ideal)) : Fin 256 → EReal :=
  fun j => x3 (ix1 j)

/-! ## The identity mask and the masked adjacency -/

/-- Two row numbers below 2048 have equal 32-bit words exactly when they are equal. -/
theorem ofNat_inj (r c : Fin 2048) : (BitVec.ofNat 32 r.val = BitVec.ofNat 32 c.val) ↔ r = c := by
  constructor
  · intro h
    have h2 := congrArg BitVec.toNat h
    simp only [BitVec.toNat_ofNat] at h2
    have hr := r.isLt; have hc := c.isLt
    exact Fin.ext (by omega)
  · intro h; rw [h]

/-- The converted comparison of the two iotas is the Kronecker delta. -/
theorem v5_at (r c : Fin 2048) :
    val_main_v5 (F := Ideal) (ix2 r c) = if r = c then (1 : EReal) else 0 := by
  rw [val_main_v5_apply, val_main_v4_apply, val_main_v3_apply, val_main_v0_apply, val_main_v1_apply,
    val_main_v2_apply, val_main_c_apply]
  show (((IntOp.cmpi .eq (IntOp.addi (BitVec.ofNat 32 r.val) 0#32) (BitVec.ofNat 32 c.val)).toNat : ℝ) : EReal) = _
  by_cases h : r = c
  · subst h
    simp [IntOp.cmpi, IntOp.addi]
  · have h' : ¬ (BitVec.ofNat 32 r.val = BitVec.ofNat 32 c.val) := fun e => h ((ofNat_inj r c).mp e)
    simp [IntOp.cmpi, IntOp.addi, h, h']

/-- The adjacency times one minus the delta. -/
theorem v8_at (x1 : (⟨S2048x2048, .f32⟩ : BufTy).Contents (Elt Ideal)) (r c : Fin 2048) :
    val_main_v8 (F := Ideal) x1 (ix2 r c) = offDiag (aOf x1) r c := by
  rw [val_main_v8_apply, val_main_v7_apply, val_main_v6_apply, val_main_cst_apply, v5_at]
  simp only [Ideal.mulf_def, Ideal.subf_def, Ideal.ofBits_def, Ideal.ofBits_one_f32]
  rfl

/-! ## The degree and its guarded reciprocal square root -/

/-- The host reduction is its initial value, the zero literal, plus the row sum. -/
theorem v9_at (x1 : (⟨S2048x2048, .f32⟩ : BufTy).Contents (Elt Ideal)) (r : Fin 2048) :
    val_main_v9 (F := Ideal) x1 (ix1 r) = degM (aOf x1) r := by
  rw [val_main_v9_apply, val_main_cst_0_apply]
  have hidx : ∀ k : Fin 2048, idx_main_v9 (ix1 r) k = ix2 r k := fun k =>
    funext fun a => Fin.ext (by match a with | ⟨0, _⟩ => rfl | ⟨1, _⟩ => rfl)
  simp only [hidx, v8_at, Ideal.ofBits_def, Ideal.ofBits_zero_f32]
  rfl

/-- The two guarded selects around `1 / sqrt`. -/
theorem v18_at (x1 : (⟨S2048x2048, .f32⟩ : BufTy).Contents (Elt Ideal)) (r : Fin 2048) :
    val_main_v18 (F := Ideal) x1 (ix1 r) = dM (aOf x1) r := by
  rw [val_main_v18_apply, val_main_v14_apply, val_main_v17_apply, val_main_v16_apply, val_main_cst_4_apply,
    val_main_v15_apply, val_main_v12_apply, val_main_v11_apply, val_main_v13_apply, val_main_cst_3_apply,
    val_main_v10_apply, val_main_cst_1_apply, val_main_call0_v1_apply, val_main_call0_v0_apply,
    val_main_cst_2_apply, val_main_call1_v1_apply, val_main_call1_v0_apply, val_main_cst_5_apply, v9_at]
  simp only [Ideal.cmpf_def, select_gt, Ideal.ofBits_def, Ideal.ofBits_zero_f32, Ideal.ofBits_one_f32,
    Ideal.hostUnary_sqrt_def, Ideal.hostDivf_def]
  rfl

/-! ## The operator's entry -/

theorem v26_at (x1 : (⟨S2048x2048, .f32⟩ : BufTy).Contents (Elt Ideal)) (i j : Fin 2048) :
    val_main_v26 (F := Ideal) x1 (ix2 i j) = opM (aOf x1) i j := by
  have e1 : idx_main_v19 (idx_main_v21 (ix2 i j)) = ix1 i :=
    funext fun a => Fin.ext (by match a with | ⟨0, _⟩ => rfl)
  have e2 : idx_main_v20 (ix2 i j) = ix2 j i :=
    funext fun a => Fin.ext (by match a with | ⟨0, _⟩ => rfl | ⟨1, _⟩ => rfl)
  have e3 : idx_main_v23 (idx_main_v24 (ix2 i j)) = ix1 j :=
    funext fun a => Fin.ext (by match a with | ⟨0, _⟩ => rfl)
  rw [val_main_v26_apply, val_main_v25_apply, val_main_v22_apply, val_main_v21_apply, val_main_v19_apply,
    val_main_v20_apply, val_main_v24_apply, val_main_v23_apply, e1, e2, e3]
  simp only [v18_at, v8_at, Ideal.hostNegf_def, Ideal.negf_def, Ideal.mulf_def]
  rfl

/-! ## One and two applications of the operator, padded with zero rows -/

/-- The slice of the first 2048 rows of the data. -/
theorem v31_at (x0 : (⟨S4x2048x256, .f32⟩ : BufTy).Contents (Elt Ideal)) (r : Fin 2048) (k : Fin 256) :
    val_main_v31 (F := Ideal) x0 (ix2 r k) = top (xOf x0) r k := by
  rw [val_main_v31_apply]
  unfold top
  exact congrArg (val_main_v27 (F := Ideal) x0)
    (funext fun a => Fin.ext (by match a with | ⟨0, _⟩ => rfl | ⟨1, _⟩ => rfl))

theorem v32_at (x0 : (⟨S4x2048x256, .f32⟩ : BufTy).Contents (Elt Ideal))
    (x1 : (⟨S2048x2048, .f32⟩ : BufTy).Contents (Elt Ideal)) (i : Fin 2048) (f : Fin 256) :
    val_main_v32 (F := Ideal) x0 x1 (ix2 i f) = stepM (aOf x1) (top (xOf x0)) i f := by
  rw [val_main_v32_apply]
  unfold stepM
  refine Finset.sum_congr rfl fun k _ => ?_
  have el : lidx_main_v32 (ix2 i f) k = ix2 i k :=
    funext fun a => Fin.ext (by match a with | ⟨0, _⟩ => rfl | ⟨1, _⟩ => rfl)
  have er : ridx_main_v32 (ix2 i f) k = ix2 k f :=
    funext fun a => Fin.ext (by match a with | ⟨0, _⟩ => rfl | ⟨1, _⟩ => rfl)
  rw [el, er, v26_at, v31_at]

/-- A 2048-row array joined with 6144 zero rows below it is the padding of the array. -/
theorem concat_pad (y : (⟨S2048x256, .f32⟩ : BufTy).Contents (Elt Ideal))
    (z : (⟨S6144x256, .f32⟩ : BufTy).Contents (Elt Ideal)) (hz : ∀ q, z q = (0 : EReal))
    (hc : Shape.Concatenates [S2048x256, S6144x256] S8192x256 0) (i : Fin 8192) (f : Fin 256) :
    concatenate S8192x256 0 [⟨S2048x256, y⟩, ⟨S6144x256, z⟩] hc (ix2 i f)
      = ChebSpec.pad (fun r k => y (ix2 r k)) i f := by
  unfold ChebSpec.pad
  by_cases h : i.val < 2048
  · rw [dif_pos h]
    exact concatenate_pair_apply_left 0 y z hc (ix2 i f) rfl
      (ix2 ⟨i.val, h⟩ f) (fun b => by match b with | ⟨0, _⟩ => rfl | ⟨1, _⟩ => rfl)
  · rw [dif_neg h]
    have hi := i.isLt
    refine (concatenate_pair_apply_right 0 y z hc (ix2 i f) rfl rfl
      (ix2 ⟨i.val - 2048, by omega⟩ f)
      (fun b => by
        match b with
        | ⟨0, _⟩ => intro hb; exact absurd rfl hb
        | ⟨1, _⟩ => intro _; rfl)
      (by show i.val - 2048 + 2048 = i.val; omega)).trans (hz _)

theorem v34_at (x0 : (⟨S4x2048x256, .f32⟩ : BufTy).Contents (Elt Ideal))
    (x1 : (⟨S2048x2048, .f32⟩ : BufTy).Contents (Elt Ideal)) (i : Fin 8192) (f : Fin 256) :
    val_main_v34 (F := Ideal) x0 x1 (ix2 i f) = ChebSpec.pad (stepM (aOf x1) (top (xOf x0))) i f := by
  unfold val_main_v34
  rw [concat_pad _ _ (fun q => by rw [val_main_v33_apply, val_main_cst_6_apply]; exact Ideal.ofBits_zero_f32)]
  have e : (fun r k => val_main_v32 (F := Ideal) x0 x1 (ix2 r k)) = stepM (aOf x1) (top (xOf x0)) :=
    funext fun r => funext fun k => v32_at x0 x1 r k
  rw [e]

/-- The slice of the padded array's first 2048 rows is the array again. -/
theorem v39_at (x0 : (⟨S4x2048x256, .f32⟩ : BufTy).Contents (Elt Ideal))
    (x1 : (⟨S2048x2048, .f32⟩ : BufTy).Contents (Elt Ideal)) (r : Fin 2048) (f : Fin 256) :
    val_main_v39 (F := Ideal) x0 x1 (ix2 r f) = stepM (aOf x1) (top (xOf x0)) r f := by
  have hr := r.isLt
  have e : idx_main_v39 (ix2 r f) = ix2 (⟨r.val, by omega⟩ : Fin 8192) f :=
    funext fun a => Fin.ext (by match a with | ⟨0, _⟩ => rfl | ⟨1, _⟩ => rfl)
  rw [val_main_v39_apply, e, v34_at]
  unfold ChebSpec.pad
  rw [dif_pos (show (⟨r.val, by omega⟩ : Fin 8192).val < 2048 from hr)]

theorem v40_at (x0 : (⟨S4x2048x256, .f32⟩ : BufTy).Contents (Elt Ideal))
    (x1 : (⟨S2048x2048, .f32⟩ : BufTy).Contents (Elt Ideal)) (i : Fin 2048) (f : Fin 256) :
    val_main_v40 (F := Ideal) x0 x1 (ix2 i f) = stepM (aOf x1) (stepM (aOf x1) (top (xOf x0))) i f := by
  rw [val_main_v40_apply]
  unfold stepM
  refine Finset.sum_congr rfl fun k _ => ?_
  have el : lidx_main_v40 (ix2 i f) k = ix2 i k :=
    funext fun a => Fin.ext (by match a with | ⟨0, _⟩ => rfl | ⟨1, _⟩ => rfl)
  have er : ridx_main_v40 (ix2 i f) k = ix2 k f :=
    funext fun a => Fin.ext (by match a with | ⟨0, _⟩ => rfl | ⟨1, _⟩ => rfl)
  rw [el, er, v26_at, v39_at]
  rfl

theorem v42_at (x0 : (⟨S4x2048x256, .f32⟩ : BufTy).Contents (Elt Ideal))
    (x1 : (⟨S2048x2048, .f32⟩ : BufTy).Contents (Elt Ideal)) (i : Fin 8192) (f : Fin 256) :
    val_main_v42 (F := Ideal) x0 x1 (ix2 i f) = ChebSpec.pad (stepM (aOf x1) (stepM (aOf x1) (top (xOf x0)))) i f := by
  unfold val_main_v42
  rw [concat_pad _ _ (fun q => by rw [val_main_v41_apply, val_main_cst_7_apply]; exact Ideal.ofBits_zero_f32)]
  have e : (fun r k => val_main_v40 (F := Ideal) x0 x1 (ix2 r k))
      = stepM (aOf x1) (stepM (aOf x1) (top (xOf x0))) :=
    funext fun r => funext fun k => v40_at x0 x1 r k
  rw [e]

/-- Twice the second application, minus the data. -/
theorem v45_at (x0 : (⟨S4x2048x256, .f32⟩ : BufTy).Contents (Elt Ideal))
    (x1 : (⟨S2048x2048, .f32⟩ : BufTy).Contents (Elt Ideal)) (i : Fin 8192) (k : Fin 256) :
    val_main_v45 (F := Ideal) x0 x1 (ix2 i k)
      = ((2 : ℝ) : EReal) * ChebSpec.pad (stepM (aOf x1) (stepM (aOf x1) (top (xOf x0)))) i k - xOf x0 i k := by
  rw [val_main_v45_apply, val_main_v44_apply, val_main_v43_apply, val_main_cst_8_apply, v42_at]
  simp only [Ideal.subf_def, Ideal.mulf_def, Ideal.ofBits_def, ofBits_two]

/-! ## The three weight slices -/

theorem v29_at (x2 : (⟨S3x256x256, .f32⟩ : BufTy).Contents (Elt Ideal)) (k j : Fin 256) :
    val_main_v29 (F := Ideal) x2 (ix2 k j) = wOf x2 0 k j := by
  rw [val_main_v29_apply, val_main_v28_apply]
  have hk := k.isLt; have hj := j.isLt
  exact congrArg x2 (funext fun a => Fin.ext (by
    match a with
    | ⟨0, _⟩ => rfl
    | ⟨1, _⟩ => show (k.val * 256 + j.val) / 256 % 256 = k.val; omega
    | ⟨2, _⟩ => show (k.val * 256 + j.val) % 256 = j.val; omega))

theorem v36_at (x2 : (⟨S3x256x256, .f32⟩ : BufTy).Contents (Elt Ideal)) (k j : Fin 256) :
    val_main_v36 (F := Ideal) x2 (ix2 k j) = wOf x2 1 k j := by
  rw [val_main_v36_apply, val_main_v35_apply]
  have hk := k.isLt; have hj := j.isLt
  exact congrArg x2 (funext fun a => Fin.ext (by
    match a with
    | ⟨0, _⟩ => rfl
    | ⟨1, _⟩ => show (k.val * 256 + j.val) / 256 % 256 = k.val; omega
    | ⟨2, _⟩ => show (k.val * 256 + j.val) % 256 = j.val; omega))

theorem v47_at (x2 : (⟨S3x256x256, .f32⟩ : BufTy).Contents (Elt Ideal)) (k j : Fin 256) :
    val_main_v47 (F := Ideal) x2 (ix2 k j) = wOf x2 2 k j := by
  rw [val_main_v47_apply, val_main_v46_apply]
  have hk := k.isLt; have hj := j.isLt
  exact congrArg x2 (funext fun a => Fin.ext (by
    match a with
    | ⟨0, _⟩ => rfl
    | ⟨1, _⟩ => show (k.val * 256 + j.val) / 256 % 256 = k.val; omega
    | ⟨2, _⟩ => show (k.val * 256 + j.val) % 256 = j.val; omega))

/-! ## The three products, their sum, and the bias -/

theorem v30_at (x0 : (⟨S4x2048x256, .f32⟩ : BufTy).Contents (Elt Ideal))
    (x2 : (⟨S3x256x256, .f32⟩ : BufTy).Contents (Elt Ideal)) (i : Fin 8192) (j : Fin 256) :
    val_main_v30 (F := Ideal) x0 x2 (ix2 i j) = ∑ k : Fin 256, xOf x0 i k * wOf x2 0 k j := by
  rw [val_main_v30_apply]
  refine Finset.sum_congr rfl fun k _ => ?_
  have el : lidx_main_v30 (ix2 i j) k = ix2 i k :=
    funext fun a => Fin.ext (by match a with | ⟨0, _⟩ => rfl | ⟨1, _⟩ => rfl)
  have er : ridx_main_v30 (ix2 i j) k = ix2 k j :=
    funext fun a => Fin.ext (by match a with | ⟨0, _⟩ => rfl | ⟨1, _⟩ => rfl)
  rw [el, er, v29_at]

theorem v37_at (x0 : (⟨S4x2048x256, .f32⟩ : BufTy).Contents (Elt Ideal))
    (x1 : (⟨S2048x2048, .f32⟩ : BufTy).Contents (Elt Ideal))
    (x2 : (⟨S3x256x256, .f32⟩ : BufTy).Contents (Elt Ideal)) (i : Fin 8192) (j : Fin 256) :
    val_main_v37 (F := Ideal) x0 x1 x2 (ix2 i j)
      = ∑ k : Fin 256, ChebSpec.pad (stepM (aOf x1) (top (xOf x0))) i k * wOf x2 1 k j := by
  rw [val_main_v37_apply]
  refine Finset.sum_congr rfl fun k _ => ?_
  have el : lidx_main_v37 (ix2 i j) k = ix2 i k :=
    funext fun a => Fin.ext (by match a with | ⟨0, _⟩ => rfl | ⟨1, _⟩ => rfl)
  have er : ridx_main_v37 (ix2 i j) k = ix2 k j :=
    funext fun a => Fin.ext (by match a with | ⟨0, _⟩ => rfl | ⟨1, _⟩ => rfl)
  rw [el, er, v34_at, v36_at]

theorem v48_at (x0 : (⟨S4x2048x256, .f32⟩ : BufTy).Contents (Elt Ideal))
    (x1 : (⟨S2048x2048, .f32⟩ : BufTy).Contents (Elt Ideal))
    (x2 : (⟨S3x256x256, .f32⟩ : BufTy).Contents (Elt Ideal)) (i : Fin 8192) (j : Fin 256) :
    val_main_v48 (F := Ideal) x0 x1 x2 (ix2 i j)
      = ∑ k : Fin 256, (((2 : ℝ) : EReal) * ChebSpec.pad (stepM (aOf x1) (stepM (aOf x1) (top (xOf x0)))) i k - xOf x0 i k)
          * wOf x2 2 k j := by
  rw [val_main_v48_apply]
  refine Finset.sum_congr rfl fun k _ => ?_
  have el : lidx_main_v48 (ix2 i j) k = ix2 i k :=
    funext fun a => Fin.ext (by match a with | ⟨0, _⟩ => rfl | ⟨1, _⟩ => rfl)
  have er : ridx_main_v48 (ix2 i j) k = ix2 k j :=
    funext fun a => Fin.ext (by match a with | ⟨0, _⟩ => rfl | ⟨1, _⟩ => rfl)
  rw [el, er, v45_at, v47_at]

/-- The bias, broadcast down the rows. -/
theorem v51_at (x3 : (⟨S256, .f32⟩ : BufTy).Contents (Elt Ideal)) (i : Fin 8192) (j : Fin 256) :
    val_main_v51 (F := Ideal) x3 (ix2 i j) = bOf x3 j := by
  rw [val_main_v51_apply, val_main_v50_apply]
  exact congrArg x3 (funext fun a => Fin.ext (by match a with | ⟨0, _⟩ => rfl))

/-! ## The array before the last reshape -/

/-- Element (i, j) of the reference's 8192 × 256 result is the operator form at (i, j). -/
theorem ref_rows (x0 : (⟨S4x2048x256, .f32⟩ : BufTy).Contents (Elt Ideal)) (x1 : (⟨S2048x2048, .f32⟩ : BufTy).Contents (Elt Ideal))
    (x2 : (⟨S3x256x256, .f32⟩ : BufTy).Contents (Elt Ideal)) (x3 : (⟨S256, .f32⟩ : BufTy).Contents (Elt Ideal)) (i : Fin 8192) (j : Fin 256) :
    val_main_v52 (F := Ideal) x0 x1 x2 x3 (ix2 i j)
      = outM (fun r c => x1 (ix2 r c)) (fun i k => val_main_v27 (F := Ideal) x0 (ix2 i k)) (fun t k j => x2 (ix3 t k j)) (fun j => x3 (ix1 j)) i j := by
  rw [val_main_v52_apply, val_main_v49_apply, val_main_v38_apply, v30_at, v37_at, v48_at, v51_at]
  simp only [Ideal.addf_def]
  rfl

end Cert.ReferenceIdeal.RefRows

end
-- ==== Proof.ChebAlgebra.lean ====
/-
  The factored and the operator form of the Chebyshev graph convolution agree on real inputs.

  Every quantity of either form, at inputs that are coercions of real numbers, is the coercion of a
  real number built the same way; on the reals the two forms are equal by distributivity and by
  splitting the diagonal term off a sum.
-/
import proofs.«122164_g54185307406511_cont_9to1_m_906_19_alg».proof.Proof.ChebSpec

noncomputable section

open scoped BigOperators

namespace Cert.ChebSpec

open Idealize.ShloMosaic

/-! ## Coercion of a finite sum -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The real twins -/

/-- Degree over the reals: the row sum minus the diagonal entry. -/
def degR (ar : Fin 2048 → Fin 2048 → ℝ) (r : Fin 2048) : ℝ := (∑ c : Fin 2048, ar r c) - ar r r

/-- The inverse square root of a positive real, and zero elsewhere. -/
def dinv (d : ℝ) : ℝ := if 0 < d then (Real.sqrt d)⁻¹ else 0

def dR (ar : Fin 2048 → Fin 2048 → ℝ) (r : Fin 2048) : ℝ := dinv (degR ar r)

/-- One application of the operator over the reals, in the factored shape. -/
def stepR (ar : Fin 2048 → Fin 2048 → ℝ) (y : Fin 2048 → Fin 256 → ℝ) (i : Fin 2048) (f : Fin 256) : ℝ :=
  dR ar i * dR ar i * ar i i * y i f - dR ar i * ∑ r : Fin 2048, ar r i * (dR ar r * y r f)

/-- The rows of the first graph, over the reals. -/
def topR (x : Fin 8192 → Fin 256 → ℝ) (i : Fin 2048) (k : Fin 256) : ℝ :=
  x ⟨i.val, by have := i.isLt; omega⟩ k

/-! ## Degrees -/

theorem degF_coe (ar : Fin 2048 → Fin 2048 → ℝ) (r : Fin 2048) :
    degF (fun r c => ((ar r c : ℝ) : EReal)) r = ((degR ar r : ℝ) : EReal) := by
  unfold degF degR
  rw [EReal.coe_sub, coe_sum]

theorem offDiag_coe (ar : Fin 2048 → Fin 2048 → ℝ) (r c : Fin 2048) :
    offDiag (fun r c => ((ar r c : ℝ) : EReal)) r c
      = ((ar r c * (1 - if r = c then (1 : ℝ) else 0) : ℝ) : EReal) := by
  unfold offDiag
  by_cases h : r = c
  · simp only [if_pos h]
    rw [← EReal.coe_one, ← EReal.coe_sub, ← EReal.coe_mul]
  · simp only [if_neg h]
    rw [← EReal.coe_one, ← EReal.coe_zero, ← EReal.coe_sub, ← EReal.coe_mul]

/-- Over the reals the masked row sum removes exactly the diagonal term. -/
theorem masked_sum (ar : Fin 2048 → Fin 2048 → ℝ) (r : Fin 2048) :
    ∑ c : Fin 2048, ar r c * (1 - if r = c then (1 : ℝ) else 0) = degR ar r := by
  unfold degR
  simp only [mul_sub, mul_one, mul_ite, mul_zero, Finset.sum_sub_distrib, Finset.sum_ite_eq,
    Finset.mem_univ, if_true]

theorem degM_coe (ar : Fin 2048 → Fin 2048 → ℝ) (r : Fin 2048) :
    degM (fun r c => ((ar r c : ℝ) : EReal)) r = ((degR ar r : ℝ) : EReal) := by
  unfold degM
  simp only [offDiag_coe]
  rw [zero_add, ← coe_sum, masked_sum]

/-! ## Inverse square roots -/

theorem invSqrtF_coe (d : ℝ) : invSqrtF (d : EReal) = ((dinv d : ℝ) : EReal) := by
  unfold invSqrtF dinv
  by_cases h : 0 < d
  · have h' : (0 : EReal) < (d : EReal) := by exact_mod_cast h
    rw [if_pos h', if_pos h', if_pos h, Ideal.rsqrt_coe, if_neg (not_lt.mpr h.le), if_neg h.ne']
  · have h' : ¬ (0 : EReal) < (d : EReal) := by exact_mod_cast h
    rw [if_neg h', if_neg h, EReal.coe_zero]

theorem invSqrtM_coe (d : ℝ) : invSqrtM (d : EReal) = ((dinv d : ℝ) : EReal) := by
  unfold invSqrtM dinv
  by_cases h : 0 < d
  · have h' : (0 : EReal) < (d : EReal) := by exact_mod_cast h
    have hs : Real.sqrt d ≠ 0 := (Real.sqrt_pos.mpr h).ne'
    rw [if_pos h', if_pos h', if_pos h, Ideal.sqrt_coe, if_neg (not_lt.mpr h.le),
      Ideal.div_coe hs, one_mul, one_div]
  · have h' : ¬ (0 : EReal) < (d : EReal) := by exact_mod_cast h
    rw [if_neg h', if_neg h, EReal.coe_zero]

theorem dF_coe (ar : Fin 2048 → Fin 2048 → ℝ) (r : Fin 2048) :
    dF (fun r c => ((ar r c : ℝ) : EReal)) r = ((dR ar r : ℝ) : EReal) := by
  unfold dF dR
  rw [degF_coe, invSqrtF_coe]

theorem dM_coe (ar : Fin 2048 → Fin 2048 → ℝ) (r : Fin 2048) :
    dM (fun r c => ((ar r c : ℝ) : EReal)) r = ((dR ar r : ℝ) : EReal) := by
  unfold dM dR
  rw [degM_coe, invSqrtM_coe]

/-! ## One application of the operator -/

theorem stepF_coe (ar : Fin 2048 → Fin 2048 → ℝ) (yr : Fin 2048 → Fin 256 → ℝ) :
    stepF (fun r c => ((ar r c : ℝ) : EReal)) (fun r f => ((yr r f : ℝ) : EReal))
      = fun i f => ((stepR ar yr i f : ℝ) : EReal) := by
  funext i f
  unfold stepF a1F stepR
  simp only [dF_coe]
  simp only [EReal.coe_sub, EReal.coe_mul, coe_sum]

/-- Over the reals, the matrix form of one application equals the factored one: the diagonal term
    of the sum is split off. -/
theorem stepM_real (ar : Fin 2048 → Fin 2048 → ℝ) (y : Fin 2048 → Fin 256 → ℝ) (i : Fin 2048) (f : Fin 256) :
    ∑ j : Fin 2048, -((dR ar i * (ar j i * (1 - if j = i then (1 : ℝ) else 0))) * dR ar j) * y j f
      = stepR ar y i f := by
  unfold stepR
  have key : ∀ j : Fin 2048,
      -((dR ar i * (ar j i * (1 - if j = i then (1 : ℝ) else 0))) * dR ar j) * y j f
        = (if j = i then dR ar i * dR ar j * ar j i * y j f else 0)
          - dR ar i * (ar j i * (dR ar j * y j f)) := by
    intro j
    by_cases h : j = i
    · simp only [if_pos h]; ring
    · simp only [if_neg h]; ring
  simp only [key]
  rw [Finset.sum_sub_distrib, Finset.sum_ite_eq', if_pos (Finset.mem_univ i), ← Finset.mul_sum]

theorem stepM_coe (ar : Fin 2048 → Fin 2048 → ℝ) (yr : Fin 2048 → Fin 256 → ℝ) :
    stepM (fun r c => ((ar r c : ℝ) : EReal)) (fun r f => ((yr r f : ℝ) : EReal))
      = fun i f => ((stepR ar yr i f : ℝ) : EReal) := by
  funext i f
  unfold stepM opM
  simp only [dM_coe, offDiag_coe]
  rw [← stepM_real]
  simp only [EReal.coe_neg, EReal.coe_mul, coe_sum]

theorem top_coe (xr : Fin 8192 → Fin 256 → ℝ) :
    top (fun i k => ((xr i k : ℝ) : EReal)) = fun i k => ((topR xr i k : ℝ) : EReal) := rfl

/-! ## The two forms -/

theorem outF_eq_outM (ar : Fin 2048 → Fin 2048 → ℝ) (xr : Fin 8192 → Fin 256 → ℝ)
    (wr : Fin 3 → Fin 256 → Fin 256 → ℝ) (br : Fin 256 → ℝ) :
    outF (fun r c => ((ar r c : ℝ) : EReal)) (fun i k => ((xr i k : ℝ) : EReal))
        (fun t k j => ((wr t k j : ℝ) : EReal)) (fun j => ((br j : ℝ) : EReal))
      = outM (fun r c => ((ar r c : ℝ) : EReal)) (fun i k => ((xr i k : ℝ) : EReal))
        (fun t k j => ((wr t k j : ℝ) : EReal)) (fun j => ((br j : ℝ) : EReal)) := by
  funext i j
  unfold outF outM wc pad
  simp only [top_coe, stepF_coe, stepM_coe]
  by_cases h : i.val < 2048
  · simp only [dif_pos h]
    have hx : ∀ k, topR xr ⟨i.val, h⟩ k = xr i k := fun k => rfl
    simp only [hx]
    simp only [← EReal.coe_sub, ← EReal.coe_mul, ← coe_sum, ← EReal.coe_add]
    congr 1
    simp only [← Finset.sum_add_distrib]
    congr 1
    refine Finset.sum_congr rfl ?_
    intro k _
    ring
  · simp only [dif_neg h]
    simp only [mul_zero, zero_mul, Finset.sum_const_zero, add_zero]
    simp only [← EReal.coe_zero, ← EReal.coe_sub, ← EReal.coe_mul, ← coe_sum, ← EReal.coe_add]
    congr 1
    simp only [← Finset.sum_add_distrib]
    congr 1
    refine Finset.sum_congr rfl ?_
    intro k _
    ring

end Cert.ChebSpec

end
-- ==== Proof.Bridge.lean ====
/-
  The two programs' 8192 × 256 arrays are one array when every input is a real number.
  The reference's is the operator form of the convolution (read off its run), the kernel's the factored form
  (read off its output buffer), both of the same four arrays: the adjacency, the data with its two leading axes
  merged, the weights, the bias (which the kernel takes as a 1 × 256 row).  On real inputs the two forms agree.
-/
import proofs.«122164_g54185307406511_cont_9to1_m_906_19_alg».proof.Proof.KernelOut
import proofs.«122164_g54185307406511_cont_9to1_m_906_19_alg».proof.Proof.RefRows
import proofs.«122164_g54185307406511_cont_9to1_m_906_19_alg».proof.Proof.ChebAlgebra

noncomputable section

open scoped BigOperators

namespace Cert.Bridge

open Idealize.ShloMosaic Idealize.ShloMosaic.ValueIdx Cert.ChebSpec

theorem rows_eq (X : (⟨Cert.ReferenceIdeal.S4x2048x256, .f32⟩ : BufTy).Contents (Elt Ideal))
    (A : (⟨Cert.ReferenceIdeal.S2048x2048, .f32⟩ : BufTy).Contents (Elt Ideal))
    (W : (⟨Cert.ReferenceIdeal.S3x256x256, .f32⟩ : BufTy).Contents (Elt Ideal))
    (b : (⟨Cert.ReferenceIdeal.S256, .f32⟩ : BufTy).Contents (Elt Ideal))
    (hX : ∃ f : Cert.ReferenceIdeal.S4x2048x256.Idx → ℝ, X = fun i => ((f i : ℝ) : EReal))
    (hA : ∃ f : Cert.ReferenceIdeal.S2048x2048.Idx → ℝ, A = fun i => ((f i : ℝ) : EReal))
    (hW : ∃ f : Cert.ReferenceIdeal.S3x256x256.Idx → ℝ, W = fun i => ((f i : ℝ) : EReal))
    (hb : ∃ f : Cert.ReferenceIdeal.S256.Idx → ℝ, b = fun i => ((f i : ℝ) : EReal)) :
    Cert.ReferenceIdeal.Read.val_main_v52 (F := Ideal) X A W b
      = Cert.KernelIdeal.Out.G X A W (shapeCast Cert.KernelIdeal.S1x256 b Cert.KernelIdeal.Facts₀.shapeCasts_S256_S1x256) := by
  funext y
  obtain ⟨i, j, rfl⟩ : ∃ (i : Fin 8192) (j : Fin 256), y = ix2 i j := ⟨y 0, y 1, eq_ix2 y⟩
  rw [Cert.ReferenceIdeal.RefRows.ref_rows]
  refine Eq.trans ?_ (Cert.KernelIdeal.Out.G_apply X A W _ i j).symm
  have hbias : Cert.KernelIdeal.Out.bOf (shapeCast Cert.KernelIdeal.S1x256 b Cert.KernelIdeal.Facts₀.shapeCasts_S256_S1x256) = fun j => b (ix1 j) :=
    funext fun j => shapeCast_a_1a_apply b _ 0 j
  have hxs : Cert.KernelIdeal.Out.xOf X = fun i k => Cert.ReferenceIdeal.Read.val_main_v27 (F := Ideal) X (ix2 i k) := rfl
  rw [hbias, hxs]
  obtain ⟨fX, rfl⟩ := hX
  obtain ⟨fA, rfl⟩ := hA
  obtain ⟨fW, rfl⟩ := hW
  obtain ⟨fb, rfl⟩ := hb
  have hx : (fun (i : Fin 8192) (k : Fin 256) => Cert.ReferenceIdeal.Read.val_main_v27 (F := Ideal) (fun i => ((fX i : ℝ) : EReal)) (ix2 i k))
      = fun i k => ((fX (Cert.ReferenceIdeal.Read.idx_main_v27 (ix2 i k)) : ℝ) : EReal) :=
    funext fun i => funext fun k => Cert.ReferenceIdeal.Read.val_main_v27_apply _ _
  rw [hx]
  exact (congrFun (congrFun (outF_eq_outM (fun r c => fA (ix2 r c)) (fun i k => fX (Cert.ReferenceIdeal.Read.idx_main_v27 (ix2 i k)))
    (fun t k j => fW (ix3 t k j)) (fun j => fb (ix1 j))) i) j).symm

end Cert.Bridge

end
-- ==== Proof.FiniteInputs.lean ====
/-
  Finiteness read back from the precondition: the predicate states, for each of the four float arrays, that
  |x| < +∞ at every element (an `and` over all axes of the elementwise comparison), and that the four results
  are all true. Over the extended reals this says that every entry of every array is a real number.
-/
import proofs.«122164_g54185307406511_cont_9to1_m_906_19_alg».proof.Pre_finite_inputs
import proofs.«122164_g54185307406511_cont_9to1_m_906_19_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

attribute [local instance] Cert.Pre_finite_inputs.Gen.facts

/-- The rank-0 shape has exactly one index. -/
instance subsingleton_S_Idx : Subsingleton S_.Idx := ⟨fun a b => funext fun d => d.elim0⟩

/-- The f32 word `0x7F800000` (sign 0, exponent all ones, fraction 0) denotes `+∞`. -/
theorem ofBits_pos_inf : Ideal.ofBits .f32 0x7F800000#32 = (⊤ : EReal) := by
  simp [Ideal.ofBits, Ideal.ieee]

/-- An extended real `x` with `max x (-x) < ⊤` is a real: at `⊤` the maximum is `⊤`, at `⊥` it is `-⊥ = ⊤`. -/
theorem exists_real_of_abs_lt_top (x : EReal) (h : max x (-x) < ⊤) : ∃ r : ℝ, x = (r : EReal) := by
  induction x using EReal.rec with
  | bot => simp at h
  | top => simp at h
  | coe r => exact ⟨r, rfl⟩

/-- One array: if the `and` over all axes of `|x| < +∞` is true, every entry of `x` is a real. -/
theorem real_of_all_finite {S : Shape} (hb : S_.BroadcastsInDim S (![] : Fin 0 → Fin S.rank))
    {axes : List (Fin S.rank)} (hr : S.ReducesTo axes S_) (hu : 0 < S_.numel) (x : FVec Ideal S .f32)
    (h : Host.reduce IntOp.andi
        (cmpf .olt (Host.absf x) (broadcastInDim S ![] hb (constant S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 h i
  have hlt : max (x i) (-(x i)) < (⊤ : EReal) := by
    have h1 : Ideal.cmp .olt (max (x i) (-(x i))) (Ideal.ofBits .f32 0x7F800000#32) = 1#1 := hi
    rw [ofBits_pos_inf] at h1
    by_contra hn
    simp [Ideal.cmp, hn] at h1
  exact exists_real_of_abs_lt_top (x i) hlt

/-- An array of extended reals whose entries are all reals is the image of a real array. -/
theorem exists_real_array {S : Shape} (x : FVec Ideal S .f32) (h : ∀ i, ∃ r : ℝ, x i = (r : EReal)) :
    ∃ f : S.Idx → ℝ, x = fun i => ((f i : ℝ) : EReal) :=
  ⟨fun i => (h i).choose, funext fun i => (h i).choose_spec⟩

/-- The precondition holds only of arrays of reals. -/
theorem real_of_finite (X : FVec Ideal S4x2048x256 .f32) (A : FVec Ideal S2048x2048 .f32)
    (W : FVec Ideal S3x256x256 .f32) (b : FVec Ideal S256 .f32)
    (h : Cert.Pre_finite_inputs.fn (F := Ideal) X A W b = (fun _ => 1#1)) :
    (∃ f : S4x2048x256.Idx → ℝ, X = fun i => ((f i : ℝ) : EReal))
      ∧ (∃ f : S2048x2048.Idx → ℝ, A = fun i => ((f i : ℝ) : EReal))
      ∧ (∃ f : S3x256x256.Idx → ℝ, W = fun i => ((f i : ℝ) : EReal))
      ∧ (∃ f : S256.Idx → ℝ, b = fun i => ((f i : ℝ) : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨exists_real_array X (real_of_all_finite _ _ _ X h1),
    exists_real_array A (real_of_all_finite _ _ _ A h2),
    exists_real_array W (real_of_all_finite _ _ _ W h3),
    exists_real_array b (real_of_all_finite _ _ _ b h4)⟩

end Cert.FiniteInputs
-- ==== Proof.lean ====
/-
  The certificate of the Chebyshev graph-convolution kernel against its reference.

  Both programs compute, for a row i of the first of four stacked graphs,
      x_i W₀ + (S x)_i W₁ + (2 S S x − x)_i W₂ + b,      S = −D^{-1/2} Aᵀ D^{-1/2},
  and for a later row x_i W₀ − x_i W₂ + b, where A is the adjacency without its diagonal and D its row sums.
  The kernel never builds S (it applies Aᵀ between two row scalings, takes the degree as the full row sum minus the
  diagonal entry, a reciprocal square root, and merges the W₀ and W₂ terms of x); the reference builds S entry by
  entry with 1 / sqrt.  Over the extended reals the two are equal when every input is a real number — the laws
  that join them are distributivity and cancellation, which fail at the infinities — and the precondition says
  exactly that.  The kernel's idealization rewrote nothing, so `preserves` is trivial; the three frames are the
  generated frame runs (the reference's, its generated run with the result dropped).
-/
import proofs.«122164_g54185307406511_cont_9to1_m_906_19_alg».proof.Defs
import proofs.«122164_g54185307406511_cont_9to1_m_906_19_alg».proof.Proof.Gen.Kernel
import proofs.«122164_g54185307406511_cont_9to1_m_906_19_alg».proof.Proof.Gen.Kernel.Skeleton
import proofs.«122164_g54185307406511_cont_9to1_m_906_19_alg».proof.Proof.Gen.Kernel.Launch
import proofs.«122164_g54185307406511_cont_9to1_m_906_19_alg».proof.Proof.Gen.Kernel.Points
import proofs.«122164_g54185307406511_cont_9to1_m_906_19_alg».proof.Proof.Gen.Kernel.Frame
import proofs.«122164_g54185307406511_cont_9to1_m_906_19_alg».proof.Proof.Gen.KernelIdeal
import proofs.«122164_g54185307406511_cont_9to1_m_906_19_alg».proof.Proof.Gen.KernelIdeal.Skeleton
import proofs.«122164_g54185307406511_cont_9to1_m_906_19_alg».proof.Proof.Gen.KernelIdeal.Launch
import proofs.«122164_g54185307406511_cont_9to1_m_906_19_alg».proof.Proof.Gen.KernelIdeal.Points
import proofs.«122164_g54185307406511_cont_9to1_m_906_19_alg».proof.Proof.Gen.KernelIdeal.Frame
import proofs.«122164_g54185307406511_cont_9to1_m_906_19_alg».proof.Proof.Gen.ReferenceIdeal
import proofs.«122164_g54185307406511_cont_9to1_m_906_19_alg».proof.Proof.Gen.Pre_finite_inputs
import proofs.«122164_g54185307406511_cont_9to1_m_906_19_alg».proof.Proof.Gen.ReferenceIdeal.Run
import proofs.«122164_g54185307406511_cont_9to1_m_906_19_alg».proof.Proof.Gen.ReferenceIdeal.Read
import proofs.«122164_g54185307406511_cont_9to1_m_906_19_alg».proof.Proof.KernelRun
import proofs.«122164_g54185307406511_cont_9to1_m_906_19_alg».proof.Proof.Bridge
import proofs.«122164_g54185307406511_cont_9to1_m_906_19_alg».proof.Proof.FiniteInputs
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result ends at the factored form of the convolution of its arguments, the
    reference's at the operator form of arguments that agree, both viewed as 4 × 2048 × 256; the precondition makes
    every argument entry a real number, where the two forms are equal. -/
theorem algebraic : Cert.algebraic_KernelIdeal_ReferenceIdeal := by
  intro m ρ m' ρ' hpre hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, (hagree c).1, (hagree c).2.1, (hagree c).2.2.1, (hagree c).2.2.2]
  obtain ⟨hX, hA, hW, hb⟩ := Cert.FiniteInputs.real_of_finite _ _ _ _ (hpre c)
  unfold Cert.KernelIdeal.RunValue.result Cert.ReferenceIdeal.Read.val_main_v53
  exact congrArg (fun Y => shapeCast Cert.KernelIdeal.S4x2048x256 Y Cert.KernelIdeal.Facts₀.shapeCasts_S8192x256_S4x2048x256)
    (Cert.Bridge.rows_eq _ _ _ _ hX hA hW hb)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
